-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S700000x128 : Shape := ⟨2, ![700000, 128]⟩

abbrev nBuf : Space → Nat
  | .hbm => 55
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x600000, .i32⟩
  | .hbm, ⟨10, _⟩ => ⟨S600000, .i32⟩
  | .hbm, ⟨11, _⟩ => ⟨S700000, .i32⟩
  | .hbm, ⟨12, _⟩ => ⟨S1x600000, .i32⟩
  | .hbm, ⟨13, _⟩ => ⟨S600000, .i32⟩
  | .hbm, ⟨14, _⟩ => ⟨S700000, .i32⟩
  | .hbm, ⟨15, _⟩ => ⟨S_, .f32⟩
  | .hbm, ⟨16, _⟩ => ⟨S700000, .f32⟩
  | .hbm, ⟨17, _⟩ => ⟨S_, .f32⟩
  | .hbm, ⟨18, _⟩ => ⟨S100000, .f32⟩
  | .hbm, ⟨19, _⟩ => ⟨S700000x1, .i32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S100000x128, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000x128, .f32⟩
  | .hbm, ⟨37, _⟩ => ⟨S_, .f32⟩
  | .hbm, ⟨38, _⟩ => ⟨S100000x128, .f32⟩
  | .hbm, ⟨39, _⟩ => ⟨S700000x1, .i32⟩
  | .hbm, ⟨40, _⟩ => ⟨S100000x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg10_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc2_sem8_0 : DmaSem sig := 25
abbrev cc2_sem9_0 : DmaSem sig := 26
abbrev cc2_sem10_0 : DmaSem sig := 27
abbrev cc2_sem10_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S100000_S700000x1_S700000_n_0_0_1_wf : ScatterDims.WF S100000 S700000x1 S700000 [] [0] [0] 1
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S100000x128.size a
  hwx2_10 : ∀ i : grid2.Coords, EltTy.bits .f32 = 32 ∨ (Rect.block (s := S100000x128) S5000x128.size (cc2_transform_10 i) (hinb2_10 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28_0) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg0) S5000x128.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg6) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v16) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v37) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x600000, .i32⟩
  | .hbm, ⟨10, _⟩ => ⟨S600000, .i32⟩
  | .hbm, ⟨11, _⟩ => ⟨S700000, .i32⟩
  | .hbm, ⟨12, _⟩ => ⟨S1x600000, .i32⟩
  | .hbm, ⟨13, _⟩ => ⟨S600000, .i32⟩
  | .hbm, ⟨14, _⟩ => ⟨S700000, .i32⟩
  | .hbm, ⟨15, _⟩ => ⟨S_, .f32⟩
  | .hbm, ⟨16, _⟩ => ⟨S700000, .f32⟩
  | .hbm, ⟨17, _⟩ => ⟨S_, .f32⟩
  | .hbm, ⟨18, _⟩ => ⟨S100000, .f32⟩
  | .hbm, ⟨19, _⟩ => ⟨S700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S700000, .i32⟩
  | .hbm, ⟨24, _⟩ => ⟨S700000, .i1⟩
  | .hbm, ⟨25, _⟩ => ⟨S_, .i32⟩
  | .hbm, ⟨26, _⟩ => ⟨S700000, .i32⟩
  | .hbm, ⟨27, _⟩ => ⟨S700000, .i32⟩
  | .hbm, ⟨28, _⟩ => ⟨S700000, .i32⟩
  | .hbm, ⟨29, _⟩ => ⟨S700000x1, .i32⟩
  | .hbm, ⟨30, _⟩ => ⟨S700000, .f32⟩
  | .hbm, ⟨31, _⟩ => ⟨S_, .i32⟩
  | .hbm, ⟨32, _⟩ => ⟨S700000, .i32⟩
  | .hbm, ⟨33, _⟩ => ⟨S700000, .i1⟩
  | .hbm, ⟨34, _⟩ => ⟨S_, .i32⟩
  | .hbm, ⟨35, _⟩ => ⟨S700000, .i32⟩
  | .hbm, ⟨36, _⟩ => ⟨S700000, .i32⟩
  | .hbm, ⟨37, _⟩ => ⟨S700000, .i32⟩
  | .hbm, ⟨38, _⟩ => ⟨S700000x1, .i32⟩
  | .hbm, ⟨39, _⟩ => ⟨S700000, .f32⟩
  | .hbm, ⟨40, _⟩ => ⟨S700000, .f32⟩
  | .hbm, ⟨41, _⟩ => ⟨S100000x128, .f32⟩
  | .hbm, ⟨42, _⟩ => ⟨S_, .i32⟩
  | .hbm, ⟨43, _⟩ => ⟨S700000, .i32⟩
  | .hbm, ⟨44, _⟩ => ⟨S700000, .i1⟩
  | .hbm, ⟨45, _⟩ => ⟨S_, .i32⟩
  | .hbm, ⟨46, _⟩ => ⟨S700000, .i32⟩
  | .hbm, ⟨47, _⟩ => ⟨S700000, .i32⟩
  | .hbm, ⟨48, _⟩ => ⟨S700000, .i32⟩
  | .hbm, ⟨49, _⟩ => ⟨S700000x1, .i32⟩
  | .hbm, ⟨50, _⟩ => ⟨S700000x128, .f32⟩
  | .hbm, ⟨51, _⟩ => ⟨S700000x1, .f32⟩
  | .hbm, ⟨52, _⟩ => ⟨S700000x128, .f32⟩
  | .hbm, ⟨53, _⟩ => ⟨S700000x128, .f32⟩
  | .hbm, ⟨54, _⟩ => ⟨S_, .f32⟩
  | .hbm, ⟨55, _⟩ => ⟨S100000x128, .f32⟩
  | .hbm, ⟨56, _⟩ => ⟨S700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KernelRun.lean ====
/-
  The idealized kernel's whole run with its result named. Every weakly fair execution of the program — three kernel
  regions among stretches of host operations — terminates without a fault; the result buffer ends at the contents the
  last region's write-backs leave (the last boundary's valuation read at the result), and every argument array ends
  as launched.
-/
import proofs.«174693_j24713241821268_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Whole

end
-- ==== Proof.KernelHost.lean ====
/-
  What the host operations between the kernel's three regions compute, as terms of the buffers they read, and which
  buffers they leave alone.

  Before the first region: the edge list with the self loops appended, the degree vector (ones scatter-added at the
  target indices), its reciprocal square root as an [N,1] column, and the four parameter vectors as [1,C] rows.
  Between the first and the second region: the scaled rows gathered at the wrapped source indices and scatter-added at
  the target indices. Between the second and the third: the mean (the column sums over the number of rows) and the
  variance from the two moments, clamped at zero. The index vectors and the degree are the same terms the reference
  computes, so they are named by the reference's stages. A buffer no operation of a stretch writes, and no region in
  between writes back, is carried unchanged from boundary to boundary.
-/
import proofs.«174693_j24713241821268_2_alg».proof.Proof.Gen.KernelIdeal.Frame
import proofs.«174693_j24713241821268_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-! ## Before the first region -/

theorem W1_v12 (c : Dev nD) : W1 m ρ c (Proc.devRef .tc main_v12)
    = shapeCast S100000x1 (Cert.ReferenceIdeal.Read.val_main_v11 (F := Ideal) (m ((c : Thread nD τ).loc main_arg1))) shapeCasts_S100000_S100000x1 := by
  show StableHlo.after hostOps0 (W0 m ρ c) (Proc.devRef .tc main_v12) = _
  after_results
  rfl

theorem W1_v13 (c : Dev nD) : W1 m ρ c (Proc.devRef .tc main_v13) = shapeCast S1x128 (m ((c : Thread nD τ).loc main_arg3)) shapeCasts_S128_S1x128 := by
  show StableHlo.after hostOps0 (W0 m ρ c) (Proc.devRef .tc main_v13) = _
  after_results
  rfl

theorem W1_v14 (c : Dev nD) : W1 m ρ c (Proc.devRef .tc main_v14) = shapeCast S1x128 (m ((c : Thread nD τ).loc main_arg4)) shapeCasts_S128_S1x128 := by
  show StableHlo.after hostOps0 (W0 m ρ c) (Proc.devRef .tc main_v14) = _
  after_results
  rfl

theorem W1_v15 (c : Dev nD) : W1 m ρ c (Proc.devRef .tc main_v15) = shapeCast S1x128 (m ((c : Thread nD τ).loc main_arg5)) shapeCasts_S128_S1x128 := by
  show StableHlo.after hostOps0 (W0 m ρ c) (Proc.devRef .tc main_v15) = _
  after_results
  rfl

theorem W1_v16 (c : Dev nD) : W1 m ρ c (Proc.devRef .tc main_v16) = shapeCast S1x128 (m ((c : Thread nD τ).loc main_arg7)) shapeCasts_S128_S1x128 := by
  show StableHlo.after hostOps0 (W0 m ρ c) (Proc.devRef .tc main_v16) = _
  after_results
  rfl

theorem W1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

theorem W1_v6 (c : Dev nD) : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results
  rfl

theorem W1_arg0 (c : Dev nD) : W1 m ρ c (Proc.devRef .tc main_arg0) = (m ((c : Thread nD τ).loc main_arg0)) := by
  show StableHlo.after hostOps0 (W0 m ρ c) (Proc.devRef .tc main_arg0) = _
  after_results

theorem W1_arg2 (c : Dev nD) : W1 m ρ c (Proc.devRef .tc main_arg2) = (m ((c : Thread nD τ).loc main_arg2)) := by
  show StableHlo.after hostOps0 (W0 m ρ c) (Proc.devRef .tc main_arg2) = _
  after_results

theorem W1_arg6 (c : Dev nD) : W1 m ρ c (Proc.devRef .tc main_arg6) = (m ((c : Thread nD τ).loc main_arg6)) := by
  show StableHlo.after hostOps0 (W0 m ρ c) (Proc.devRef .tc main_arg6) = _
  after_results

/-! ## Across the first region: its input arrays and the buffers it does not touch -/

theorem W2_arg0 (c : Dev nD) : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (W1_arg0 m ρ c)

theorem W2_v12 (c : Dev nD) : W2 m ρ c (Proc.devRef .tc main_v12) = W1 m ρ c (Proc.devRef .tc main_v12) :=
  (W2_arr m ρ c 2).trans (((dat0 (V1 m ρ) c).arrAt_in 2 rfl _).trans (A_eq0 (V1 m ρ) c 2))

theorem W2_v13 (c : Dev nD) : W2 m ρ c (Proc.devRef .tc main_v13) = W1 m ρ c (Proc.devRef .tc main_v13) :=
  W2_of_ne m ρ c main_v13 (by decide)
theorem W2_v14 (c : Dev nD) : W2 m ρ c (Proc.devRef .tc main_v14) = W1 m ρ c (Proc.devRef .tc main_v14) :=
  W2_of_ne m ρ c main_v14 (by decide)
theorem W2_v15 (c : Dev nD) : W2 m ρ c (Proc.devRef .tc main_v15) = W1 m ρ c (Proc.devRef .tc main_v15) :=
  W2_of_ne m ρ c main_v15 (by decide)
theorem W2_v16 (c : Dev nD) : W2 m ρ c (Proc.devRef .tc main_v16) = W1 m ρ c (Proc.devRef .tc main_v16) :=
  W2_of_ne m ρ c main_v16 (by decide)
theorem W2_arg6 (c : Dev nD) : W2 m ρ c (Proc.devRef .tc main_arg6) = (m ((c : Thread nD τ).loc main_arg6)) :=
  (W2_of_ne m ρ c main_arg6 (by decide)).trans (W1_arg6 m ρ c)
theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_v6 (c : Dev nD) : W2 m ρ c (Proc.devRef .tc main_v6) = Cert.ReferenceIdeal.Read.val_main_v6 (F := Ideal) (m ((c : Thread nD τ).loc main_arg1)) :=
  (W2_of_ne m ρ c main_v6 (by decide)).trans (W1_v6 m ρ c)

/-! ## Between the first and the second region -/

/-- The aggregate: the first region's rows gathered at the wrapped source indices, scatter-added into zeros at the
    target indices. -/
theorem W3_v27 (c : Dev nD) : W3 m ρ c (Proc.devRef .tc main_v27)
    = Host.scatterAdd (F := Ideal) (φ := .f32) scatter_S100000x128_S700000x1_S700000x128_1_0_0_1
        (Cert.ReferenceIdeal.Read.val_main_v38 (F := Ideal)) (Cert.ReferenceIdeal.Read.val_main_v9 (F := Ideal) (m ((c : Thread nD τ).loc main_arg1)))
        (Host.gather (α := EReal) gather_S100000x128_S700000x1_S700000x128_1_0_n_n_0_1_1128
          (W2 m ρ c (Proc.devRef .tc main_v17)) (Cert.ReferenceIdeal.Read.val_main_v17 (F := Ideal) (m ((c : Thread nD τ).loc main_arg1)))) := by
  show StableHlo.after hostOps1 (W2 m ρ c) (Proc.devRef .tc main_v27) = _
  after_results
  rw [W2_v3, W2_v6]
  rfl

theorem W3_v12 (c : Dev nD) : W3 m ρ c (Proc.devRef .tc main_v12) = W1 m ρ c (Proc.devRef .tc main_v12) := by
  refine Eq.trans ?_ (W2_v12 m ρ c)
  show StableHlo.after hostOps1 (W2 m ρ c) (Proc.devRef .tc main_v12) = _
  after_results
theorem W3_v13 (c : Dev nD) : W3 m ρ c (Proc.devRef .tc main_v13) = W1 m ρ c (Proc.devRef .tc main_v13) := by
  refine Eq.trans ?_ (W2_v13 m ρ c)
  show StableHlo.after hostOps1 (W2 m ρ c) (Proc.devRef .tc main_v13) = _
  after_results
theorem W3_v14 (c : Dev nD) : W3 m ρ c (Proc.devRef .tc main_v14) = W1 m ρ c (Proc.devRef .tc main_v14) := by
  refine Eq.trans ?_ (W2_v14 m ρ c)
  show StableHlo.after hostOps1 (W2 m ρ c) (Proc.devRef .tc main_v14) = _
  after_results
theorem W3_v15 (c : Dev nD) : W3 m ρ c (Proc.devRef .tc main_v15) = W1 m ρ c (Proc.devRef .tc main_v15) := by
  refine Eq.trans ?_ (W2_v15 m ρ c)
  show StableHlo.after hostOps1 (W2 m ρ c) (Proc.devRef .tc main_v15) = _
  after_results
theorem W3_v16 (c : Dev nD) : W3 m ρ c (Proc.devRef .tc main_v16) = W1 m ρ c (Proc.devRef .tc main_v16) := by
  refine Eq.trans ?_ (W2_v16 m ρ c)
  show StableHlo.after hostOps1 (W2 m ρ c) (Proc.devRef .tc main_v16) = _
  after_results
theorem W3_arg0 (c : Dev nD) : W3 m ρ c (Proc.devRef .tc main_arg0) = (m ((c : Thread nD τ).loc main_arg0)) := by
  refine Eq.trans ?_ (W2_arg0 m ρ c)
  show StableHlo.after hostOps1 (W2 m ρ c) (Proc.devRef .tc main_arg0) = _
  after_results
theorem W3_arg6 (c : Dev nD) : W3 m ρ c (Proc.devRef .tc main_arg6) = (m ((c : Thread nD τ).loc main_arg6)) := by
  refine Eq.trans ?_ (W2_arg6 m ρ c)
  show StableHlo.after hostOps1 (W2 m ρ c) (Proc.devRef .tc main_arg6) = _
  after_results

/-! ## Across the second region -/

theorem W4_v27 (c : Dev nD) : W4 m ρ c (Proc.devRef .tc main_v27) = W3 m ρ c (Proc.devRef .tc main_v27) :=
  (W4_arr m ρ c 0).trans (((dat1 (V3 m ρ) c).arrAt_in 0 rfl _).trans (A_eq1 (V3 m ρ) c 0))
theorem W4_v12 (c : Dev nD) : W4 m ρ c (Proc.devRef .tc main_v12) = W1 m ρ c (Proc.devRef .tc main_v12) :=
  ((W4_arr m ρ c 1).trans (((dat1 (V3 m ρ) c).arrAt_in 1 rfl _).trans (A_eq1 (V3 m ρ) c 1))).trans (W3_v12 m ρ c)
theorem W4_v13 (c : Dev nD) : W4 m ρ c (Proc.devRef .tc main_v13) = W1 m ρ c (Proc.devRef .tc main_v13) :=
  ((W4_arr m ρ c 2).trans (((dat1 (V3 m ρ) c).arrAt_in 2 rfl _).trans (A_eq1 (V3 m ρ) c 2))).trans (W3_v13 m ρ c)
theorem W4_v14 (c : Dev nD) : W4 m ρ c (Proc.devRef .tc main_v14) = W1 m ρ c (Proc.devRef .tc main_v14) :=
  (W4_of_ne m ρ c main_v14 (by decide)).trans (W3_v14 m ρ c)
theorem W4_v15 (c : Dev nD) : W4 m ρ c (Proc.devRef .tc main_v15) = W1 m ρ c (Proc.devRef .tc main_v15) :=
  (W4_of_ne m ρ c main_v15 (by decide)).trans (W3_v15 m ρ c)
theorem W4_v16 (c : Dev nD) : W4 m ρ c (Proc.devRef .tc main_v16) = W1 m ρ c (Proc.devRef .tc main_v16) :=
  (W4_of_ne m ρ c main_v16 (by decide)).trans (W3_v16 m ρ c)
theorem W4_arg0 (c : Dev nD) : W4 m ρ c (Proc.devRef .tc main_arg0) = (m ((c : Thread nD τ).loc main_arg0)) :=
  (W4_of_ne m ρ c main_arg0 (by decide)).trans (W3_arg0 m ρ c)
theorem W4_arg6 (c : Dev nD) : W4 m ρ c (Proc.devRef .tc main_arg6) = (m ((c : Thread nD τ).loc main_arg6)) :=
  (W4_of_ne m ρ c main_arg6 (by decide)).trans (W3_arg6 m ρ c)

/-! ## Between the second and the third region -/

/-- The mean: the column sums over the number of rows. -/
theorem W5_v30 (c : Dev nD) : W5 m ρ c (Proc.devRef .tc main_v30)
    = Host.divf (W4 m ρ c (Proc.devRef .tc main_v28_0))
        (broadcastInDim S1x128 ![] bcast_S_S1x128 (constant (F := Ideal) S_ .f32 0x47C35000#32)) := by
  show StableHlo.after hostOps2 (W4 m ρ c) (Proc.devRef .tc main_v30) = _
  after_results

/-- The variance: the mean of the squares minus the square of the mean, clamped at zero. -/
theorem W5_v36 (c : Dev nD) : W5 m ρ c (Proc.devRef .tc main_v36)
    = maximumf (subf (Host.divf (W4 m ρ c (Proc.devRef .tc main_v28_1))
          (broadcastInDim S1x128 ![] bcast_S_S1x128 (constant (F := Ideal) S_ .f32 0x47C35000#32)))
        (mulf (Host.divf (W4 m ρ c (Proc.devRef .tc main_v28_0))
            (broadcastInDim S1x128 ![] bcast_S_S1x128 (constant (F := Ideal) S_ .f32 0x47C35000#32)))
          (Host.divf (W4 m ρ c (Proc.devRef .tc main_v28_0))
            (broadcastInDim S1x128 ![] bcast_S_S1x128 (constant (F := Ideal) S_ .f32 0x47C35000#32)))))
      (broadcastInDim S1x128 ![] bcast_S_S1x128 (constant (F := Ideal) S_ .f32 0x00000000#32)) := by
  show StableHlo.after hostOps2 (W4 m ρ c) (Proc.devRef .tc main_v36) = _
  after_results

theorem W5_v27 (c : Dev nD) : W5 m ρ c (Proc.devRef .tc main_v27) = W3 m ρ c (Proc.devRef .tc main_v27) := by
  refine Eq.trans ?_ (W4_v27 m ρ c)
  show StableHlo.after hostOps2 (W4 m ρ c) (Proc.devRef .tc main_v27) = _
  after_results
theorem W5_v12 (c : Dev nD) : W5 m ρ c (Proc.devRef .tc main_v12) = W1 m ρ c (Proc.devRef .tc main_v12) := by
  refine Eq.trans ?_ (W4_v12 m ρ c)
  show StableHlo.after hostOps2 (W4 m ρ c) (Proc.devRef .tc main_v12) = _
  after_results
theorem W5_v13 (c : Dev nD) : W5 m ρ c (Proc.devRef .tc main_v13) = W1 m ρ c (Proc.devRef .tc main_v13) := by
  refine Eq.trans ?_ (W4_v13 m ρ c)
  show StableHlo.after hostOps2 (W4 m ρ c) (Proc.devRef .tc main_v13) = _
  after_results
theorem W5_v14 (c : Dev nD) : W5 m ρ c (Proc.devRef .tc main_v14) = W1 m ρ c (Proc.devRef .tc main_v14) := by
  refine Eq.trans ?_ (W4_v14 m ρ c)
  show StableHlo.after hostOps2 (W4 m ρ c) (Proc.devRef .tc main_v14) = _
  after_results
theorem W5_v15 (c : Dev nD) : W5 m ρ c (Proc.devRef .tc main_v15) = W1 m ρ c (Proc.devRef .tc main_v15) := by
  refine Eq.trans ?_ (W4_v15 m ρ c)
  show StableHlo.after hostOps2 (W4 m ρ c) (Proc.devRef .tc main_v15) = _
  after_results
theorem W5_v16 (c : Dev nD) : W5 m ρ c (Proc.devRef .tc main_v16) = W1 m ρ c (Proc.devRef .tc main_v16) := by
  refine Eq.trans ?_ (W4_v16 m ρ c)
  show StableHlo.after hostOps2 (W4 m ρ c) (Proc.devRef .tc main_v16) = _
  after_results
theorem W5_arg0 (c : Dev nD) : W5 m ρ c (Proc.devRef .tc main_arg0) = (m ((c : Thread nD τ).loc main_arg0)) := by
  refine Eq.trans ?_ (W4_arg0 m ρ c)
  show StableHlo.after hostOps2 (W4 m ρ c) (Proc.devRef .tc main_arg0) = _
  after_results
theorem W5_arg6 (c : Dev nD) : W5 m ρ c (Proc.devRef .tc main_arg6) = (m ((c : Thread nD τ).loc main_arg6)) := by
  refine Eq.trans ?_ (W4_arg6 m ρ c)
  show StableHlo.after hostOps2 (W4 m ρ c) (Proc.devRef .tc main_arg6) = _
  after_results

end Cert.KernelIdeal.Whole

end
-- ==== Proof.LibRowGatherScatter.lean ====
/-
  Row gather and row scatter-add, read at an index.

  What \`x[idx]\` of a matrix \`x : [N, C]\` at an integer vector \`idx : [E]\` (carried as \`[E, 1]\`) lowers to is a
  \`stablehlo.gather\` of whole rows: result element \`(e, k)\` is \`x\` at row \`idx[e]\` (read signed, clamped into
  \`[0, N − 1]\`) and column \`k\`. What a segment sum of rows \`upd : [E, C]\` into \`[N, C]\` lowers to is a
  \`stablehlo.scatter\` with an \`add\` body: operand element \`(n, k)\` receives every \`upd (e, k)\` whose index \`idx[e]\`,
  read signed and not clamped, is exactly \`n\`.
-/
import Idealize.ShloMosaic.Lib.ValueIdx
import Idealize.ShloMosaic.PureOps.Ideal

noncomputable section

open scoped BigOperators

namespace Cert.RowOps

open Idealize.ShloMosaic Idealize.ShloMosaic.ValueIdx

/-! ## The row gather -/

/-- The dimension numbers of a row gather: operand \`[N, C]\`, start indices \`[E, 1]\`, result \`[E, C]\`; offset axis
    \`1\`, collapsed operand axis \`0\`, the start index naming operand axis \`0\`, slices of one whole row. Their
    conditions \`wf\` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for edge \`e\`: the start index read signed and clamped into \`[0, N − 1]\`. -/
def gatherRow {N E w : Nat} (hN : 0 < N) (idx : IVec ⟨2, ![E, 1]⟩ w) (e : Fin E) : Fin N :=
  ⟨min (idx (ix2 e 0)).toInt.toNat (N - 1), by omega⟩

/-- The row gather at \`(e, k)\` is the operand at row \`gatherRow e\` (the clamped start index) and column \`k\`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (gatherRow hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (fun h => absurd (List.mem_singleton.mp h) (show (1 : Fin 2) ≠ 0 by decide))]
    rw [hst]
    simp only [Nat.add_zero, Nat.zero_add]
    unfold GatherDims.offCoord
    rw [dif_pos ((GatherDims.mem_sKept _ _).mpr
      ⟨fun h => absurd (List.mem_singleton.mp h) (show (1 : Fin 2) ≠ 0 by decide), List.not_mem_nil⟩)]
    rfl

/-! ## The row scatter-add -/

/-- The dimension numbers of a row scatter: operand \`[N, C]\`, scatter indices \`[E, 1]\`, updates \`[E, C]\`; update
    window axis \`1\`, inserted operand axis \`0\`, the scatter index naming operand axis \`0\`. Their conditions \`wf\` are
    decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- The operand axes the update windows go to are the ones that are not inserted. -/
theorem rowScatter_mem_sKept (a : Fin 2) :
    a ∈ (rowScatterDims N E C wf).sKept ↔ a ∉ (rowScatterDims N E C wf).insertedWindowDims := by
  simp [ScatterDims.sKept, Shape.kept, List.mem_filter, List.mem_finRange]

/-- On the row axis the window of update \`(e, k)\` starts at the scatter index \`idx[e]\`, read signed. -/
theorem rowScatter_start0 (idx : IVec ⟨2, ![E, 1]⟩ w) (e : Fin E) (k : Fin C) :
    (rowScatterDims N E C wf).start (ix2 e k) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at \`0\`: the scatter index names the row axis only. -/
theorem rowScatter_start1 (idx : IVec ⟨2, ![E, 1]⟩ w) (e : Fin E) (k : Fin C) :
    (rowScatterDims N E C wf).start (ix2 e k) idx 1 = 0 := by
  unfold ScatterDims.start
  rw [dif_neg (fun h => absurd (List.mem_singleton.mp h) (show (1 : Fin 2) ≠ 0 by decide))]

/-- The row axis is an inserted one: the window coordinate there is \`0\`. -/
theorem rowScatter_window0 (e : Fin E) (k : Fin C) : (rowScatterDims N E C wf).window (ix2 e k) 0 = 0 := by
  unfold ScatterDims.window
  rw [dif_neg (fun h => ((rowScatter_mem_sKept wf 0).mp h) (List.mem_singleton.mpr rfl))]

/-- On the column axis the window coordinate of update \`(e, k)\` is \`k\`. -/
theorem rowScatter_window1 (e : Fin E) (k : Fin C) : (rowScatterDims N E C wf).window (ix2 e k) 1 = k.val := by
  unfold ScatterDims.window
  rw [dif_pos ((rowScatter_mem_sKept wf 1).mpr
    (fun h => absurd (List.mem_singleton.mp h) (show (1 : Fin 2) ≠ 0 by decide)))]
  rfl

end Scatter

/-- Update \`(e, k)\` lands on operand element \`(n, k')\` exactly when the columns agree and the scatter index \`idx[e]\`,
    read signed, is the row \`n\`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (k = k' ∧ (idx (ix2 e 0)).toInt = (n.val : Int)) := by
  have hk := k.isLt
  have hn := n.isLt
  unfold ScatterDims.resultIdx?
  constructor
  · intro h
    by_cases hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a
    · rw [dif_pos hall] at h
      have heq := Option.some.inj h
      have h0 : ((rowScatterDims N E C wf).start (ix2 e k) idx 0 + (rowScatterDims N E C wf).window (ix2 e k) 0).toNat
          = n.val := congrArg (fun f => (f 0).val) heq
      have h1 : ((rowScatterDims N E C wf).start (ix2 e k) idx 1 + (rowScatterDims N E C wf).window (ix2 e k) 1).toNat
          = k'.val := congrArg (fun f => (f 1).val) heq
      have b0 := (hall 0).1
      rw [rowScatter_start0, rowScatter_window0] at h0 b0
      rw [rowScatter_start1, rowScatter_window1] at h1
      refine ⟨Fin.ext ?_, ?_⟩
      · omega
      · omega
    · rw [dif_neg hall] at h
      exact absurd h (by simp)
  · rintro ⟨rfl, hi⟩
    have hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a := by
      intro a
      match a with
      | ⟨0, _⟩ =>
        show 0 ≤ (rowScatterDims N E C wf).start (ix2 e k) idx 0 + (rowScatterDims N E C wf).window (ix2 e k) 0
          ∧ (rowScatterDims N E C wf).start (ix2 e k) idx 0 + (rowScatterDims N E C wf).window (ix2 e k) 0 < (N : Int)
        rw [rowScatter_start0, rowScatter_window0, hi]
        omega
      | ⟨1, _⟩ =>
        show 0 ≤ (rowScatterDims N E C wf).start (ix2 e k) idx 1 + (rowScatterDims N E C wf).window (ix2 e k) 1
          ∧ (rowScatterDims N E C wf).start (ix2 e k) idx 1 + (rowScatterDims N E C wf).window (ix2 e k) 1 < (C : Int)
        rw [rowScatter_start1, rowScatter_window1]
        omega
    rw [dif_pos hall]
    congr 1
    funext a
    refine Fin.ext ?_
    match a with
    | ⟨0, _⟩ =>
      show ((rowScatterDims N E C wf).start (ix2 e k) idx 0 + (rowScatterDims N E C wf).window (ix2 e k) 0).toNat = n.val
      rw [rowScatter_start0, rowScatter_window0, hi]
      omega
    | ⟨1, _⟩ =>
      show ((rowScatterDims N E C wf).start (ix2 e k) idx 1 + (rowScatterDims N E C wf).window (ix2 e k) 1).toNat = k.val
      rw [rowScatter_start1, rowScatter_window1]
      omega

/-- THE ROW SCATTER-ADD AT \`(n, k)\`: the operand element plus the sum of the update elements \`upd (e, k)\` over the
    edges \`e\` whose scatter index \`idx[e]\`, read signed and not clamped, is the row \`n\`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e 0)).toInt = (n.val : Int)), upd (ix2 e k) := by
  unfold Ideal.hostScatterAdd
  congr 1
  -- the update indices that land on \`(n, k)\` are the \`(e, k)\` with \`idx[e] = n\`: re-index by the edge coordinate
  refine Finset.sum_nbij' (fun j => (j 0 : Fin E)) (fun e => ix2 e k) ?_ ?_ ?_ ?_ ?_
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    exact Finset.mem_filter.mpr ⟨Finset.mem_univ _, h.2⟩
  · intro e he
    exact Finset.mem_filter.mpr ⟨Finset.mem_univ _,
      (rowScatter_resultIdx_iff wf idx e k n k).mpr ⟨rfl, (Finset.mem_filter.mp he).2⟩⟩
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show ix2 a k = ix2 a b
    rw [h.1]
  · intro e _
    rfl
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show upd (ix2 a b) = upd (ix2 a k)
    rw [h.1]

end Cert.RowOps

end
-- ==== Proof.LibVecGatherScatter.lean ====
/-
  Gather and scatter-add of a vector, read at an index.

  What `x[idx]` of a vector `x : [N]` at an integer vector `idx : [E]` (carried as `[E, 1]`) lowers to is a
  `stablehlo.gather` of single elements: result element `e` is `x` at `idx[e]` (read signed, clamped into
  `[0, N − 1]`). What a segment sum of `upd : [E]` into `[N]` lowers to is a `stablehlo.scatter` with an `add` body:
  operand element `n` receives every `upd e` whose index `idx[e]`, read signed and not clamped, is exactly `n`.
-/
import Idealize.ShloMosaic.Lib.ValueIdx
import Idealize.ShloMosaic.PureOps.Ideal

noncomputable section

open scoped BigOperators

namespace Cert.VecOps

open Idealize.ShloMosaic Idealize.ShloMosaic.ValueIdx

/-! ## The element gather -/

/-- The dimension numbers of an element gather: operand `[N]`, start indices `[E, 1]`, result `[E]`; no offset axis,
    the operand's one axis collapsed, the start index naming it, slices of one element. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element the gather reads for edge `e`: the start index read signed and clamped into `[0, N − 1]`. -/
def gatherElt {N E w : Nat} (hN : 0 < N) (idx : IVec ⟨2, ![E, 1]⟩ w) (e : Fin E) : Fin N :=
  ⟨min (idx (ix2 e 0)).toInt.toNat (N - 1), by omega⟩

/-- The element gather at `e` is the operand at `gatherElt e` (the clamped start index). -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherElt hN idx e)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## The element scatter-add -/

/-- The dimension numbers of an element scatter: operand `[N]`, scatter indices `[E, 1]`, updates `[E]`; no update
    window axis, the operand's one axis inserted, the scatter index naming it. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)

/-- The operand axes the update windows go to are the ones that are not inserted. -/
theorem vecScatter_mem_sKept (a : Fin 1) :
    a ∈ (vecScatterDims N E wf).sKept ↔ a ∉ (vecScatterDims N E wf).insertedWindowDims := by
  simp [ScatterDims.sKept, Shape.kept, List.mem_filter, List.mem_finRange]

/-- The window of update `e` starts at the scatter index `idx[e]`, read signed. -/
theorem vecScatter_start0 (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's axis is an inserted one: the window coordinate there is `0`. -/
theorem vecScatter_window0 (e : Fin E) : (vecScatterDims N E wf).window (ix1 e) 0 = 0 := by
  unfold ScatterDims.window
  rw [dif_neg (fun h => ((vecScatter_mem_sKept wf 0).mp h) (List.mem_singleton.mpr rfl))]

end Scatter

/-- Update `e` lands on operand element `n` exactly when the scatter index `idx[e]`, read signed, is `n`. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e 0)).toInt = (n.val : Int) := by
  have hn := n.isLt
  unfold ScatterDims.resultIdx?
  constructor
  · intro h
    by_cases hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a
    · rw [dif_pos hall] at h
      have heq := Option.some.inj h
      have h0 : ((vecScatterDims N E wf).start (ix1 e) idx 0 + (vecScatterDims N E wf).window (ix1 e) 0).toNat
          = n.val := congrArg (fun f => (f 0).val) heq
      have b0 := (hall 0).1
      rw [vecScatter_start0, vecScatter_window0] at h0 b0
      omega
    · rw [dif_neg hall] at h
      exact absurd h (by simp)
  · intro hi
    have hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [vecScatter_start0, vecScatter_window0, hi]
        omega
    rw [dif_pos hall]
    congr 1
    funext a
    refine Fin.ext ?_
    match a with
    | ⟨0, _⟩ =>
      show ((vecScatterDims N E wf).start (ix1 e) idx 0 + (vecScatterDims N E wf).window (ix1 e) 0).toNat = n.val
      rw [vecScatter_start0, vecScatter_window0, hi]
      omega

/-- THE ELEMENT SCATTER-ADD AT `n`: the operand element plus the sum of the update elements `upd e` over the edges
    `e` whose scatter index `idx[e]`, read signed and not clamped, is `n`. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n)
        + ∑ e ∈ Finset.univ.filter (fun e : Fin E => (idx (ix2 e 0)).toInt = (n.val : Int)), upd (ix1 e) := by
  unfold Ideal.hostScatterAdd
  congr 1
  refine Finset.sum_nbij' (fun j => (j 0 : Fin E)) (fun e => ix1 e) ?_ ?_ ?_ ?_ ?_
  · intro j hj
    obtain ⟨a, rfl⟩ : ∃ (a : Fin E), j = ix1 a := ⟨j 0, eq_ix1 j⟩
    exact Finset.mem_filter.mpr ⟨Finset.mem_univ _, (vecScatter_resultIdx_iff wf idx a n).mp (Finset.mem_filter.mp hj).2⟩
  · intro e he
    exact Finset.mem_filter.mpr ⟨Finset.mem_univ _, (vecScatter_resultIdx_iff wf idx e n).mpr (Finset.mem_filter.mp he).2⟩
  · intro j _
    exact (eq_ix1 j).symm
  · intro e _
    rfl
  · intro j _
    exact congrArg upd (eq_ix1 j)

end Cert.VecOps

end
-- ==== Proof.GcnBnSpec.lean ====
/-
  A graph convolution in the symmetric normalisation, rectified, normalised over the nodes (batch statistics with the
  biased variance), plus a dense residual — as ONE function of its arguments, in two arrangements.

  Nodes `n : Fin N`, edges `e : Fin E` (the self loops are edges of the list), `K` input and `C` output features.
  An edge contributes to the node its target index names exactly (read signed, not clamped): `into dst n` is the set
  of edges whose target is `n`. Its source row is its start index read signed and clamped into `[0, N - 1]`.
  The degree of `n` is the number of edges into it and `dinv n = deg(n)^(-1/2)`.

  With `h = X · W` the pre-activation of node `n`, feature `c`, is
      (sum over e into n of h(src e, c) * dinv(src e)) * dinv(n) + b(c)                              (preK)
  when the rows are scaled once before the aggregation and once after it, and
      (sum over e into n of h(src e, c) * (dinv(src e) * dinv(tgt e))) + b(c)                        (preR)
  when every message carries both factors, the target's read at the edge's (wrapped, clamped) target index.
  The rectified activations `r = max(pre, 0)` are normalised feature by feature with the mean over the nodes and the
  biased variance — the latter either as the mean of the squares minus the square of the mean, clamped at zero
  (`varK`), or as the mean of the squared deviations (`varR`).
-/
import Idealize.ShloMosaic.PureOps.Ideal
import Idealize.ShloMosaic.Lib.ValueIdx
import proofs.«174693_j24713241821268_2_alg».proof.Proof.LibRowGatherScatter
import proofs.«174693_j24713241821268_2_alg».proof.Proof.LibVecGatherScatter

noncomputable section

open scoped BigOperators

namespace Cert.GcnBn

open Idealize.ShloMosaic Idealize.ShloMosaic.ValueIdx

variable {N E C K : ℕ}

/-- The edges whose target index, read signed, is exactly the node `n`. -/
def into (dst : IVec ⟨2, ![E, 1]⟩ 32) (n : Fin N) : Finset (Fin E) :=
  Finset.univ.filter (fun e : Fin E => (dst (ix2 e 0)).toInt = (n.val : Int))

/-- `deg(n)^(-1/2)`: the reciprocal square root of the number of edges into `n`. -/
def dinv (dst : IVec ⟨2, ![E, 1]⟩ 32) (n : Fin N) : EReal :=
  Ideal.rsqrt (∑ _e ∈ into dst n, (1 : EReal))

/-- The node an index column names for edge `e` when it is read by a gather: signed, clamped into `[0, N - 1]`. -/
abbrev nodeOf (hN : 0 < N) (idx : IVec ⟨2, ![E, 1]⟩ 32) (e : Fin E) : Fin N := Cert.RowOps.gatherRow hN idx e

/-- A dense product read at an entry. -/
def dense (X : Fin N → Fin K → EReal) (W : Fin K → Fin C → EReal) (n : Fin N) (c : Fin C) : EReal :=
  ∑ j : Fin K, X n j * W j c

/-- The pre-activation with the rows scaled by `dinv` before the aggregation and after it. -/
def preK (hN : 0 < N) (src dst : IVec ⟨2, ![E, 1]⟩ 32) (X : Fin N → Fin K → EReal) (W : Fin K → Fin C → EReal)
    (b : Fin C → EReal) (n : Fin N) (c : Fin C) : EReal :=
  (∑ e ∈ into dst n, dense X W (nodeOf hN src e) c * dinv dst (nodeOf hN src e)) * dinv dst n + b c

/-- The pre-activation with every message scaled by `dinv(source) * dinv(target)`, the target's factor read at the
    wrapped target index `dstw`. -/
def preR (hN : 0 < N) (src dstw dst : IVec ⟨2, ![E, 1]⟩ 32) (X : Fin N → Fin K → EReal) (W : Fin K → Fin C → EReal)
    (b : Fin C → EReal) (n : Fin N) (c : Fin C) : EReal :=
  (∑ e ∈ into dst n, dense X W (nodeOf hN src e) c * (dinv dst (nodeOf hN src e) * dinv dst (nodeOf hN dstw e))) + b c

/-- The mean over the nodes. -/
def mean (cnt : EReal) (r : Fin N → Fin C → EReal) (c : Fin C) : EReal :=
  Ideal.div (∑ n : Fin N, r n c) cnt

/-- The biased variance as the mean of the squares minus the square of the mean, clamped at zero. -/
def varK (cnt : EReal) (r : Fin N → Fin C → EReal) (c : Fin C) : EReal :=
  max (Ideal.div (∑ n : Fin N, r n c * r n c) cnt - mean cnt r c * mean cnt r c) 0

/-- The biased variance as the mean of the squared deviations from the mean. -/
def varR (cnt : EReal) (r : Fin N → Fin C → EReal) (c : Fin C) : EReal :=
  Ideal.div (∑ n : Fin N, (r n c - mean cnt r c) * (r n c - mean cnt r c)) cnt

/-- The normalised, affinely transformed activation plus the residual term. -/
def finish (eps : EReal) (gamma beta : Fin C → EReal) (r : Fin N → Fin C → EReal) (mu var : Fin C → EReal)
    (res : Fin N → Fin C → EReal) (n : Fin N) (c : Fin C) : EReal :=
  ((gamma c * (r n c - mu c)) * Ideal.rsqrt (var c + eps) + beta c) + res n c

/-- The residual: a dense product plus a bias. -/
def resid (X : Fin N → Fin K → EReal) (Wres : Fin K → Fin C → EReal) (bres : Fin C → EReal) (n : Fin N) (c : Fin C) :
    EReal :=
  dense X Wres n c + bres c

/-- The rectified activations of the first arrangement. -/
def actK (hN : 0 < N) (src dst : IVec ⟨2, ![E, 1]⟩ 32) (X : Fin N → Fin K → EReal) (W : Fin K → Fin C → EReal)
    (b : Fin C → EReal) (n : Fin N) (c : Fin C) : EReal :=
  max (preK hN src dst X W b n c) 0

/-- The rectified activations of the second arrangement. -/
def actR (hN : 0 < N) (src dstw dst : IVec ⟨2, ![E, 1]⟩ 32) (X : Fin N → Fin K → EReal) (W : Fin K → Fin C → EReal)
    (b : Fin C → EReal) (n : Fin N) (c : Fin C) : EReal :=
  max (preR hN src dstw dst X W b n c) 0

/-- THE RESULT, first arrangement: factors outside the aggregation, variance from the two moments. -/
def outK (hN : 0 < N) (cnt eps : EReal) (src dst : IVec ⟨2, ![E, 1]⟩ 32) (X : Fin N → Fin K → EReal)
    (W : Fin K → Fin C → EReal) (b gamma beta : Fin C → EReal) (Wres : Fin K → Fin C → EReal) (bres : Fin C → EReal)
    (n : Fin N) (c : Fin C) : EReal :=
  finish eps gamma beta (actK hN src dst X W b) (mean cnt (actK hN src dst X W b)) (varK cnt (actK hN src dst X W b))
    (resid X Wres bres) n c

/-- THE RESULT, second arrangement: factors on every message, variance from the squared deviations. -/
def outR (hN : 0 < N) (cnt eps : EReal) (src dstw dst : IVec ⟨2, ![E, 1]⟩ 32) (X : Fin N → Fin K → EReal)
    (W : Fin K → Fin C → EReal) (b gamma beta : Fin C → EReal) (Wres : Fin K → Fin C → EReal) (bres : Fin C → EReal)
    (n : Fin N) (c : Fin C) : EReal :=
  finish eps gamma beta (actR hN src dstw dst X W b) (mean cnt (actR hN src dstw dst X W b))
    (varR cnt (actR hN src dstw dst X W b)) (resid X Wres bres) n c

end Cert.GcnBn

end
-- ==== Proof.RefIndex.lean ====
/-
  The reference's edge lists and its degree vector, read at an index.

  The reference appends the self loops to the edge list: its target vector is the `600000` given targets followed by
  `0, 1, …, 99999`, so edge `600000 + n` is the self loop of node `n`. Three consequences are proved here.
  * Every node has an edge into it (its self loop).
  * An edge whose raw target index, read signed, is a node `n` (so it lies in `[0, 100000)`) is left alone by the
    wrap `idx < 0 ? idx + 100000 : idx` and by the clamp of the gather that follows: the node that gather reads is `n`.
  * The reciprocal square root of the scatter-added vector of ones is `deg(n)^(-1/2)`, the degree counting the edges
    whose target, read signed, is exactly `n`.
-/
import proofs.«174693_j24713241821268_2_alg».proof.Proof.Gen.ReferenceIdeal.Read
import proofs.«174693_j24713241821268_2_alg».proof.Proof.GcnBnSpec
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The index columns at an edge -/

/-- The raw target column at edge `e` is the concatenated target vector at `e`. -/
theorem v9_at (x1 : (⟨S2x600000, .i32⟩ : BufTy).Contents (Elt Ideal)) (e : Fin 700000) :
    Read.val_main_v9 (F := Ideal) x1 (ix2 e 0) = Read.val_main_v6 (F := Ideal) x1 (ix1 e) := by
  rw [Read.val_main_v9_apply]
  exact congrArg _ (funext fun a => by match a with | ⟨0, _⟩ => rfl)

/-- The wrapped target column at edge `e`: the raw target `v` there, replaced by `v + 100000` when `v < 0`. -/
theorem v24_at (x1 : (⟨S2x600000, .i32⟩ : BufTy).Contents (Elt Ideal)) (e : Fin 700000) :
    Read.val_main_v24 (F := Ideal) x1 (ix2 e 0)
      = Scalar.select (IntOp.cmpi .slt (Read.val_main_v6 (F := Ideal) x1 (ix1 e)) 0#32)
          (IntOp.addi (Read.val_main_v6 (F := Ideal) x1 (ix1 e)) 100000#32) (Read.val_main_v6 (F := Ideal) x1 (ix1 e)) := by
  rw [Read.val_main_v24_apply, Read.val_main_v23_apply, Read.val_main_v20_apply, Read.val_main_v22_apply,
    Read.val_main_v19_apply, Read.val_main_v21_apply, Read.val_main_c_2_apply, Read.val_main_c_3_apply]
  have hi : Read.idx_main_v24 (ix2 e 0) = ix1 e := funext fun a => by match a with | ⟨0, _⟩ => rfl
  rw [hi]

/-- The concatenated target vector past the given edges is the iota: at `600000 + n` it is `n`. -/
theorem v6_loop (x1 : (⟨S2x600000, .i32⟩ : BufTy).Contents (Elt Ideal)) (n : Fin 100000) (e : Fin 700000)
    (he : n.val + 600000 = e.val) :
    Read.val_main_v6 (F := Ideal) x1 (ix1 e) = BitVec.ofNat 32 n.val := by
  unfold Read.val_main_v6
  refine (concatenate_pair_apply_right 0 (Read.val_main_v5 (F := Ideal) x1) (Read.val_main_v0 (F := Ideal))
    concatenates_S600000_S100000_S700000_d0 (ix1 e) rfl rfl (ix1 n) (fun b hb => ?_) he).trans ?_
  · match b with
    | ⟨0, _⟩ => exact absurd rfl hb
  · rw [Read.val_main_v0_apply]

/-! ## The self loops -/

/-- Every node has an edge into it: its self loop, edge `600000 + n`, whose target is `n`. -/
theorem self_loop (x1 : (⟨S2x600000, .i32⟩ : BufTy).Contents (Elt Ideal)) (n : Fin 100000) :
    (Cert.GcnBn.into (E := 700000) (Read.val_main_v9 (F := Ideal) x1) n).Nonempty := by
  have hn := n.isLt
  refine ⟨⟨n.val + 600000, by omega⟩, ?_⟩
  unfold Cert.GcnBn.into
  refine Finset.mem_filter.mpr ⟨Finset.mem_univ _, ?_⟩
  have h1 : (BitVec.ofNat 32 n.val).toNat = n.val := by
    rw [BitVec.toNat_ofNat]
    exact Nat.mod_eq_of_lt (by omega)
  rw [v9_at, v6_loop x1 n _ rfl, BitVec.toInt_eq_toNat_of_lt (by rw [h1]; omega), h1]

/-! ## The wrapped target of an edge into a node -/

/-- An edge whose raw target, read signed, is the node `n` has `n` as its wrapped and clamped target too. -/
theorem wrapped_target (x1 : (⟨S2x600000, .i32⟩ : BufTy).Contents (Elt Ideal)) (n : Fin 100000) (e : Fin 700000)
    (he : e ∈ Cert.GcnBn.into (Read.val_main_v9 (F := Ideal) x1) n) :
    Cert.GcnBn.nodeOf (N := 100000) (by norm_num) (Read.val_main_v24 (F := Ideal) x1) e = n := by
  have hn := n.isLt
  have hv : (Read.val_main_v6 (F := Ideal) x1 (ix1 e)).toInt = (n.val : Int) := by
    have h := (Finset.mem_filter.mp he).2
    rwa [v9_at] at h
  refine Fin.ext ?_
  show min (Read.val_main_v24 (F := Ideal) x1 (ix2 e 0)).toInt.toNat (100000 - 1) = n.val
  rw [v24_at]
  generalize Read.val_main_v6 (F := Ideal) x1 (ix1 e) = v at hv
  have hs : IntOp.cmpi .slt v 0#32 = 0#1 := by
    have : v.slt 0#32 = false := by
      rw [BitVec.slt, hv]
      simp
    show BitVec.ofBool (v.slt 0#32) = 0#1
    rw [this]; rfl
  rw [hs]
  show min (if (0#1 : BitVec 1) = 1 then _ else v).toInt.toNat (100000 - 1) = n.val
  rw [if_neg (by decide), hv]
  omega

/-! ## The degree -/

/-- The printed dimension numbers of the degree's scatter are those of an element scatter. -/
theorem degree_scatter_dims :
    scatter_S100000_S700000x1_S700000_n_0_0_1
      = Cert.VecOps.vecScatterDims 100000 700000 scatter_S100000_S700000x1_S700000_n_0_0_1_wf := rfl

/-- The scatter-added vector of ones at node `n` is the number of edges whose target, read signed, is `n`. -/
theorem degree_apply (idx : IVec ⟨2, ![700000, 1]⟩ 32) (x : (⟨1, ![100000]⟩ : Shape).Idx → EReal)
    (upd : (⟨1, ![700000]⟩ : Shape).Idx → EReal) (n : Fin 100000) :
    Host.scatterAdd (F := Ideal) (φ := .f32) scatter_S100000_S700000x1_S700000_n_0_0_1 x idx upd (ix1 n)
      = x (ix1 n)
        + ∑ e ∈ Finset.univ.filter (fun e : Fin 700000 => (idx (ix2 e 0)).toInt = (n.val : Int)), upd (ix1 e) := by
  rw [degree_scatter_dims]
  unfold Host.scatterAdd
  rw [Ideal.hostScatterAdd_def]
  exact Cert.VecOps.vecScatterAdd_apply _ x idx upd n

/-- The reciprocal square root of the scatter-added ones at node `n` is `deg(n)^(-1/2)`. -/
theorem dinv_apply (x1 : (⟨S2x600000, .i32⟩ : BufTy).Contents (Elt Ideal)) (n : Fin 100000) :
    Read.val_main_v11 (F := Ideal) x1 (ix1 n) = Cert.GcnBn.dinv (E := 700000) (Read.val_main_v9 (F := Ideal) x1) n := by
  rw [Read.val_main_v11_apply, Ideal.hostUnary_rsqrt_def]
  unfold Cert.GcnBn.dinv Cert.GcnBn.into
  refine congrArg Ideal.rsqrt ?_
  unfold Read.val_main_v10
  generalize Read.val_main_v9 (F := Ideal) x1 = idx
  rw [degree_apply, Read.val_main_v8_apply, Read.val_main_cst_0_apply, Ideal.ofBits_def,
    Ideal.ofBits_zero_f32, zero_add]
  refine Finset.sum_congr rfl fun e _ => ?_
  rw [Read.val_main_v7_apply, Read.val_main_cst_apply, Ideal.ofBits_def, Ideal.ofBits_one_f32]

end Cert.ReferenceIdeal.RefValue

end
-- ==== Proof.ProjValue.lean ====
/-
  The first of the three calls: a dense projection with the source-side normalisation folded in.

  The call walks the 100000 rows of the feature array in twenty blocks of 5000. On block t it multiplies the block
  [5000,128] by the whole weight matrix [128,128] (the operands pass through a narrower float format on the way in,
  which at the ideal values changes nothing, and the product accumulates onto zero, so an entry is the plain sum of
  128 products) and scales row p of the product by entry p of the factor column's block [5000,1], broadcast along the
  lanes. Written back block by block, the result array [100000,128] is therefore ONE function of the three arrays
  the call reads, whatever they hold when the call is entered:

      result (n, k) = (sum over j of X (n, j) * W (j, k)) * D (n, 0).

  The module proves this in four steps: the stored block read at an entry (the product at an entry, the column
  broadcast at an entry); each input block as rows of its array (block index times block size plus the coordinate in
  the block, with the index maps decided over the twenty points); what a point writes back as block t of the one
  function; and the cover (row r belongs to point r / 5000), which makes the array after the last point that function.
-/
import proofs.«174693_j24713241821268_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The block product read at an entry

The dimension numbers contract the block's lane axis with the matrix's row axis: at output entry (p, q) and
contraction index k the left operand is read at (p, k) and the right operand at (k, q). -/

theorem dense_lhs_row (i : S5000x128.Idx) (r : dot_S5000x128_S128x128_S5000x128_1_0_0_1_n_n.contr.Idx) : (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem dense_lhs_lane (i : S5000x128.Idx) (r : dot_S5000x128_S128x128_S5000x128_1_0_0_1_n_n.contr.Idx) : (dot_S5000x128_S128x128_S5000x128_1_0_0_1_n_n.lhsIdx i r 1).val = (r ⟨0, by decide⟩).val :=
  dot_S5000x128_S128x128_S5000x128_1_0_0_1_n_n.lhsIdx_val_of_single rfl i r

theorem dense_rhs_row (i : S5000x128.Idx) (r : dot_S5000x128_S128x128_S5000x128_1_0_0_1_n_n.contr.Idx) : (dot_S5000x128_S128x128_S5000x128_1_0_0_1_n_n.rhsIdx i r 0).val = (r ⟨0, by decide⟩).val :=
  dot_S5000x128_S128x128_S5000x128_1_0_0_1_n_n.rhsIdx_val_of_single rfl i r

theorem dense_rhs_lane (i : S5000x128.Idx) (r : dot_S5000x128_S128x128_S5000x128_1_0_0_1_n_n.contr.Idx) : (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a [5000,128] block with a [128,128] matrix into the zero accumulator, read at an entry: the sum over
    the shared axis. -/
theorem dense_block_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ j : Fin 128, x (ix2 p j) * w (ix2 j q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dense_lhs_row _ _
    | ⟨1, _⟩ => exact (dense_lhs_lane _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dense_rhs_row _ _).trans hk
    | ⟨1, _⟩ => exact dense_rhs_lane _ _)
  rw [el, er]

/-- A [5000,1] column broadcast along the lanes reads, at (p, q), the column's entry p. -/
theorem column_broadcast_apply (d : FVec Ideal S5000x1 .f32) (h : S5000x1.Broadcasts S5000x128) (p : Fin 5000) (q : Fin 128) :
    broadcastTo S5000x128 d h (ix2 p q) = d (ix2 p (0 : Fin 1)) := by
  refine broadcastTo_apply d h (ix2 p q) (ix2 p (0 : Fin 1)) fun ax => ?_
  match ax with
  | ⟨0, _⟩ => rfl
  | ⟨1, _⟩ => rfl

/-- The body's stored value at an entry of the block: the dense product's entry scaled by the row's factor. -/
theorem proj_payload_apply (x0 : Vec Ideal S5000x128 .f32) (x1 : Vec Ideal S128x128 .f32) (x2 : Vec Ideal S5000x1 .f32) (p : Fin 5000) (q : Fin 128) :
    k0_pay1 x0 x1 x2 (ix2 p q) = (∑ j : Fin 128, x0 (ix2 p j) * x1 (ix2 j q)) * x2 (ix2 p (0 : Fin 1)) := by
  unfold k0_pay1
  rw [mulf_apply, dense_block_apply, column_broadcast_apply, shapeCast_self]
  rfl

/-! ## From the blocks to the array

Grid point t of the twenty handles rows 5000 t to 5000 t + 4999: the feature block, the factor column's block and the
result block sit at block index (t, 0), the weight matrix is one block at (0, 0). -/

theorem unit_offsets : (![0, 0] : Fin 2 → Nat) = fun _ => 0 := funext fun a => by fin_cases a <;> rfl

/-- The whole result array as one function of the three arrays the call reads: entry (n, k) is the dense product's
    entry scaled by row n's factor. -/
def projArr (X : S100000x128.Idx → EReal) (W : S128x128.Idx → EReal) (D : S100000x1.Idx → EReal) : S100000x128.Idx → EReal :=
  fun i => (∑ j : Fin 128, X (ix2 (⟨(i 0).val, idx2_lt0 i⟩ : Fin 100000) j) * W (ix2 j (⟨(i 1).val, idx2_lt1 i⟩ : Fin 128)))
    * D (ix2 (⟨(i 0).val, idx2_lt0 i⟩ : Fin 100000) (0 : Fin 1))

/-- The four windows' block indices over the twenty grid points. -/
theorem proj_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The feature block at point t is rows 5000 t … of the feature array. -/
theorem feature_block_apply (c : Dev nD) (t : Fin cfg0.N) (y : S5000x128.Idx) (k : S100000x128.Idx)
    (hk0 : (k 0).val = t.val * 5000 + (y 0).val) (hk1 : (k 1).val = (y 1).val) :
    (iblk0 V c 0 t : Vec Ideal S5000x128 .f32) y = (V c main_arg0 : S100000x128.Idx → EReal) k := by
  obtain ⟨e0, e1, -⟩ := proj_index_maps t
  unfold iblk0
  rw [View.read_apply]
  show (V c main_arg0 : S100000x128.Idx → EReal) _ = (V c main_arg0 : S100000x128.Idx → EReal) k
  refine congrArg (V c main_arg0 : S100000x128.Idx → EReal) ?_
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- The weight block at every point is the whole weight matrix. -/
theorem weight_block_apply (c : Dev nD) (t : Fin cfg0.N) (y : S128x128.Idx) :
    (iblk0 V c 1 t : Vec Ideal S128x128 .f32) y = (V c main_arg2 : S128x128.Idx → EReal) y := by
  obtain ⟨-, -, e0, e1, -⟩ := proj_index_maps t
  unfold iblk0
  rw [View.read_apply]
  show (V c main_arg2 : S128x128.Idx → EReal) _ = (V c main_arg2 : S128x128.Idx → EReal) y
  refine congrArg (V c main_arg2 : S128x128.Idx → EReal) ?_
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The factor column's block at point t is rows 5000 t … of the column. -/
theorem factor_block_apply (c : Dev nD) (t : Fin cfg0.N) (y : S5000x1.Idx) (k : S100000x1.Idx)
    (hk0 : (k 0).val = t.val * 5000 + (y 0).val) (hk1 : (k 1).val = (y 1).val) :
    (iblk0 V c 2 t : Vec Ideal S5000x1 .f32) y = (V c main_v12 : S100000x1.Idx → EReal) k := by
  obtain ⟨-, -, -, -, e0, e1, -⟩ := proj_index_maps t
  unfold iblk0
  rw [View.read_apply]
  show (V c main_v12 : S100000x1.Idx → EReal) _ = (V c main_v12 : S100000x1.Idx → EReal) k
  refine congrArg (V c main_v12 : S100000x1.Idx → EReal) ?_
  funext a
  apply Fin.ext
  match a with
  | ⟨0, _⟩ => show win0_2.index t (0 : Fin 2) * 5000 + 1 * (y 0).val = (k 0).val; rw [e0, hk0]; omega
  | ⟨1, _⟩ => show win0_2.index t (1 : Fin 2) * 1 + 1 * (y 1).val = (k 1).val; rw [e1, hk1]; omega

/-- What point t writes back is block t of the one whole-array function of the arrays the call reads. -/
theorem proj_flushed_eq (c : Dev nD) (t : Fin cfg0.N) :
    (dat0 (F := Ideal) V c).flushed 3 t
      = ((cfg0.win 3).blk t).view.read (Elt Ideal) (projArr (V c main_arg0) (V c main_arg2) (V c main_v12)) := by
  show (cfg0.win 3).cut (grid0.coords t) ((dat0 (F := Ideal) V c).after 3 t) = _
  rw [after0_3]
  unfold out0_3
  rw [View.canon_unit_zero unit_offsets]
  simp only [View.ld_unit_zero (S := S5000x128) unit_offsets, View.ld_unit_zero (S := S128x128) unit_offsets, View.ld_unit_zero (S := S5000x1) unit_offsets]
  obtain ⟨-, -, -, -, -, -, e0, e1⟩ := proj_index_maps t
  have ht : t.val < 20 := by have hN : cfg0.N = 20 := N_0; have := t.isLt; omega
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
      = projArr (V c main_arg0) (V c main_arg2) (V c main_v12) (((cfg0.win 3).blk t).view.emb (ix2 p q))
  rw [proj_payload_apply]
  have hr : ((((cfg0.win 3).blk t).view.emb (ix2 p q) : S100000x128.Idx) 0).val = t.val * 5000 + p.val := by
    show win0_3.index t (0 : Fin 2) * 5000 + 1 * p.val = _; rw [e0]; omega
  have hl : ((((cfg0.win 3).blk t).view.emb (ix2 p q) : S100000x128.Idx) 1).val = q.val := by
    show win0_3.index t (1 : Fin 2) * 128 + 1 * q.val = _; rw [e1]; omega
  unfold projArr
  refine congrArg₂ (· * ·) (Finset.sum_congr rfl fun j _ => congrArg₂ (· * ·) ?_ ?_) ?_
  · exact feature_block_apply V c t (ix2 p j) _ hr rfl
  · refine (weight_block_apply V c t (ix2 j q)).trans (congrArg (V c main_arg2 : S128x128.Idx → EReal) ?_)
    funext a; apply Fin.ext
    match a with
    | ⟨0, _⟩ => rfl
    | ⟨1, _⟩ => exact hl.symm
  · exact factor_block_apply V c t (ix2 p (0 : Fin 1)) _ hr rfl

end

/-- An entry of the result array lies in point t's block iff each coordinate lies in the block's range on its axis. -/
theorem proj_mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Row r is covered by point r / 5000. -/
theorem proj_cover (i : S100000x128.Idx) : ∃ t : Fin cfg0.N, (cfg0.win 3).flush t = true ∧ i ∈ ((cfg0.win 3).blk t).view.set := by
  have hN : cfg0.N = 20 := N_0
  have hi0 : (i 0).val < 100000 := idx2_lt0 i
  have hi1 : (i 1).val < 128 := idx2_lt1 i
  let t : Fin cfg0.N := ⟨(i 0).val / 5000, by omega⟩
  obtain ⟨-, -, -, -, -, -, e0, e1⟩ := proj_index_maps t
  have ht : t.val = (i 0).val / 5000 := rfl
  refine ⟨t, flush0_3 t, ?_⟩
  rw [proj_mem_block]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

section
variable (V : (c : Dev nD) → (b : Ref sig .tc) → Buf (Elt Ideal) ((c : Thread nD τ).loc b))

/-- The result array after the twenty points: the one whole-array function of the arrays the call reads. -/
theorem proj_final (c : Dev nD) :
    (dat0 (F := Ideal) V c).arrAt 3 cfg0.N = projArr (V c main_arg0) (V c main_arg2) (V c main_v12) :=
  (dat0 (F := Ideal) V c).arrAt_eq_of_cover 3 (projArr (V c main_arg0) (V c main_arg2) (V c main_v12))
    (fun t _ => proj_flushed_eq V c t) proj_cover

/-- REGION 0, with the three arrays the call reads named: after the projection call, entry (n, k) of its result array
    is the dense product of the features with the weights at (n, k), scaled by row n's factor. -/
theorem region0_out_of (c : Dev nD) (X : S100000x128.Idx → EReal) (W : S128x128.Idx → EReal) (D : S100000x1.Idx → EReal)
    (hX : V c main_arg0 = X) (hW : V c main_arg2 = W) (hD : V c main_v12 = D) (n : Fin 100000) (k : Fin 128) :
    (Gen.dat0 (F := Ideal) V c).arrAt 3 cfg0.N (ix2 n k)
      = (∑ j : Fin 128, X (ix2 n j) * W (ix2 j k)) * D (ix2 n (0 : Fin 1)) := by
  subst hX hW hD
  rw [proj_final V c]
  rfl

/-- REGION 0: the same with the region-entry contents in place. -/
theorem region0_out (c : Dev nD) (n : Fin 100000) (k : Fin 128) :
    (Gen.dat0 (F := Ideal) V c).arrAt 3 cfg0.N (ix2 n k)
      = (∑ j : Fin 128, (id (V c main_arg0) : S100000x128.Idx → EReal) (ix2 n j) * (id (V c main_arg2) : S128x128.Idx → EReal) (ix2 j k))
          * (id (V c main_v12) : S100000x1.Idx → EReal) (ix2 n (0 : Fin 1)) :=
  region0_out_of V c _ _ _ rfl rfl rfl n k

end

end Cert.KernelIdeal.RegionValue

end
-- ==== Proof.StatsPieces.lean ====
/-
  The second kernel of the program accumulates, over a grid of twenty points, the column sums of a rectified block and of
  its square into two one-row outputs. This module reads what ONE grid point leaves in each of the two outputs, as a pure
  function of the three input blocks and of what the output held before the point.

  At the first point the body first stores a row of zeros into each output and then adds the block's column sums to what
  it reads back, so the output ends at `(column sums of the block) added to the zero row`; at every later point it adds the
  block's column sums to what the point before left. Both are the same arithmetic term (`Gen.k1_pay4` for the sums,
  `Gen.k1_pay5` for the sums of squares) applied to a different carried row. The statements hold for any float
  interpretation.
-/
import proofs.«174693_j24713241821268_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.RegionValue.Stats

open Cert.KernelIdeal Cert.KernelIdeal.Gen

variable {F : FTy → Type} [FloatOps F]

/-- The zero offsets of a two-axis rectangle, as a constant function. -/
theorem zeroOffsets : (![0, 0] : Fin 2 → Nat) = fun _ => 0 := funext fun a => by fin_cases a <;> rfl

/-- The row of zeros the first point stores into the running sum. -/
abbrev zeroRow3 : Vec F S1x128 .f32 := k1_pay1

/-- The row of zeros the first point stores into the running sum of squares. -/
abbrev zeroRow4 : Vec F S1x128 .f32 := k1_pay2

/-- A later point leaves in the sum output the carried row plus the block's column sums. -/
theorem later_sum (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (x2 : Vec F S1x128 .f32)
    (xo3 xo4 : Vec F S1x128 .f32) :
    out1_B_3 c i a1 h1 a2 h2 a3 h3 a4 h4 a5 h5 hc x0 x1 x2 xo3 xo4 = k1_pay4 x0 x1 x2 xo3 := by
  unfold out1_B_3
  rw [View.read_writes_eq_canon _ _ _ (cover1_B_3 c i a1 h1 a2 h2 a3 h3 a4 h4 a5 h5 hc x0 x1 x2 xo3 xo4)]
  unfold kernelRun1_B
  dsimp only
  rw [View.canon_unit_zero (S := S1x128) zeroOffsets]
  simp only [View.readAt_eq_ld, h1.read_unread, h2.read_unread, h3.read_unread, h4.read_unread,
    View.ld_unit_zero (S := S5000x128) zeroOffsets, View.ld_unit_zero (S := S5000x1) zeroOffsets,
    View.ld_unit_zero (S := S1x128) zeroOffsets]

/-- A later point leaves in the squares output the carried row plus the column sums of the block's squares. -/
theorem later_sumsq (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (x2 : Vec F S1x128 .f32)
    (xo3 xo4 : Vec F S1x128 .f32) :
    out1_B_4 c i a1 h1 a2 h2 a3 h3 a4 h4 a5 h5 hc x0 x1 x2 xo3 xo4 = k1_pay5 x0 x1 x2 xo4 := by
  unfold out1_B_4
  rw [View.read_writes_eq_canon _ _ _ (cover1_B_4 c i a1 h1 a2 h2 a3 h3 a4 h4 a5 h5 hc x0 x1 x2 xo3 xo4)]
  unfold kernelRun1_B
  dsimp only
  rw [View.canon_unit_zero (S := S1x128) zeroOffsets]
  simp only [View.readAt_eq_ld, h1.read_unread, h2.read_unread, h3.read_unread, h5.read_unread,
    View.ld_unit_zero (S := S5000x128) zeroOffsets, View.ld_unit_zero (S := S5000x1) zeroOffsets,
    View.ld_unit_zero (S := S1x128) zeroOffsets]

/-- The first point leaves in the sum output the zero row plus the block's column sums: the zero row it has just stored
    is what its accumulation reads back. -/
theorem first_sum (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) (x2 : Vec F S1x128 .f32) :
    out1_A_3 c i a1 h1 a2 h2 a3 h3 a4 h4 a5 h5 hc x0 x1 x2 = k1_pay4 x0 x1 x2 zeroRow3 := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_cons_unit_zero (S := S1x128) zeroOffsets, View.readCov_unit_zero (S := S1x128) _ zeroOffsets]
  simp only [View.readAt_eq_ld, h1.read_unread, h2.read_unread, h3.read_unread,
    View.ld_unit_zero (S := S5000x128) zeroOffsets, View.ld_unit_zero (S := S5000x1) zeroOffsets,
    View.ld_unit_zero (S := S1x128) zeroOffsets]

/-- The first point leaves in the squares output the zero row plus the column sums of the block's squares. -/
theorem first_sumsq (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) (x2 : Vec F S1x128 .f32) :
    out1_A_4 c i a1 h1 a2 h2 a3 h3 a4 h4 a5 h5 hc x0 x1 x2 = k1_pay5 x0 x1 x2 zeroRow4 := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x128) zeroOffsets, View.readCov_unit_zero (S := S1x128) _ zeroOffsets]
  simp only [View.readAt_eq_ld, h1.read_unread, h2.read_unread, h3.read_unread,
    View.ld_unit_zero (S := S5000x128) zeroOffsets, View.ld_unit_zero (S := S5000x1) zeroOffsets,
    View.ld_unit_zero (S := S1x128) zeroOffsets]

end Cert.KernelIdeal.RegionValue.Stats

end
-- ==== Proof.StatsPayload.lean ====
/-
  The arithmetic of one grid point of the statistics kernel, read entry by entry over the extended reals.

  For a block `x0` of 5000 rows and 128 columns, a column `x1` of 5000 row factors and a row `x2` of 128 biases, the
  rectified entry at row `p`, column `k` is `max (x0 p k * x1 p + x2 k) 0`. The point adds to column `k` of the carried
  sum row the sum over the 5000 rows of the rectified entries, and to column `k` of the carried squares row the sum over
  the rows of their squares. A reduction along the row axis is, over the extended reals, the plain finite sum.
-/
import proofs.«174693_j24713241821268_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

open scoped BigOperators
open Idealize.ShloMosaic Idealize.ShloMosaic.ValueIdx

namespace Cert.KernelIdeal.RegionValue.Stats

open Cert.KernelIdeal Cert.KernelIdeal.Gen

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The rectified entry: the block entry times its row factor, plus the column's bias, cut off below at zero. -/
theorem rectified_apply (x0 : Vec Ideal S5000x128 .f32) (x1 : Vec Ideal S5000x1 .f32) (x2 : Vec Ideal S1x128 .f32)
    (p : Fin 5000) (k : Fin 128) :
    k1_pay3 x0 x1 x2 (ix2 p k) = max (x0 (ix2 p k) * x1 (ix2 p (0 : Fin 1)) + x2 (ix2 (0 : Fin 1) k)) 0 := by
  unfold k1_pay3
  show max (shapeCast S5000x128 x0 _ (ix2 p k) * broadcastTo S5000x128 (shapeCast S5000x1 x1 _) _ (ix2 p k)
      + broadcastTo S5000x128 (shapeCast S1x128 x2 _) _ (ix2 p k)) (Ideal.ofBits .f32 0x00000000#32) = _
  rw [shapeCast_self, shapeCast_self, shapeCast_self, broadcastTo_a1_ab_apply, broadcastTo_1b_ab_apply,
    Ideal.ofBits_zero_f32]

/-- The row inserted at coordinate `p` of the reduced axis, over column `k`, is the entry `(p, k)`. -/
theorem lift_row (k : Fin 128) (p : Fin 5000) :
    reduces_S5000x128_S128.lift (ix1 k) p = ix2 p k :=
  funext fun a => Fin.ext (by match a with | ⟨0, _⟩ => rfl | ⟨1, _⟩ => rfl)

/-- A sum along the row axis of a 5000 by 128 block, read at column `k`: the sum of the column's 5000 entries. -/
theorem columnSum_apply (src : FVec Ideal S5000x128 .f32) (k : Fin 128) :
    multiReduction .add [0] S128 src 0x00000000#32 reduces_S5000x128_S128 (.inl rfl) rfl (ix1 k)
      = ∑ p : Fin 5000, src (ix2 p k) := by
  refine (Ideal.multiReduction_add_single src 0x00000000#32 reduces_S5000x128_S128 (.inl rfl) rfl (ix1 k)).trans ?_
  show ∑ p : Fin 5000, src (reduces_S5000x128_S128.lift (ix1 k) p) = _
  exact Finset.sum_congr rfl fun p _ => congrArg src (lift_row k p)

/-- One point's sum row at column `k`: the carried entry plus the column sum of the rectified block. -/
theorem pointSum_apply (x0 : Vec Ideal S5000x128 .f32) (x1 : Vec Ideal S5000x1 .f32) (x2 : Vec Ideal S1x128 .f32)
    (acc : Vec Ideal S1x128 .f32) (k : Fin 128) :
    k1_pay4 x0 x1 x2 acc (ix2 (0 : Fin 1) k)
      = acc (ix2 (0 : Fin 1) k)
        + ∑ p : Fin 5000, max (x0 (ix2 p k) * x1 (ix2 p (0 : Fin 1)) + x2 (ix2 (0 : Fin 1) k)) 0 := by
  unfold k1_pay4
  show shapeCast S1x128 acc _ (ix2 (0 : Fin 1) k) + shapeCast S1x128 (multiReduction .add [0] S128 (k1_pay3 x0 x1 x2) _ _ _ _) _ (ix2 (0 : Fin 1) k) = _
  rw [shapeCast_self, shapeCast_a_1a_apply]
  refine congrArg (acc (ix2 (0 : Fin 1) k) + ·) ((columnSum_apply (k1_pay3 x0 x1 x2) k).trans ?_)
  exact Finset.sum_congr rfl fun p _ => rectified_apply x0 x1 x2 p k

/-- One point's squares row at column `k`: the carried entry plus the column sum of the squared rectified block. -/
theorem pointSumsq_apply (x0 : Vec Ideal S5000x128 .f32) (x1 : Vec Ideal S5000x1 .f32) (x2 : Vec Ideal S1x128 .f32)
    (acc : Vec Ideal S1x128 .f32) (k : Fin 128) :
    k1_pay5 x0 x1 x2 acc (ix2 (0 : Fin 1) k)
      = acc (ix2 (0 : Fin 1) k)
        + ∑ p : Fin 5000, max (x0 (ix2 p k) * x1 (ix2 p (0 : Fin 1)) + x2 (ix2 (0 : Fin 1) k)) 0
            * max (x0 (ix2 p k) * x1 (ix2 p (0 : Fin 1)) + x2 (ix2 (0 : Fin 1) k)) 0 := by
  unfold k1_pay5
  show shapeCast S1x128 acc _ (ix2 (0 : Fin 1) k)
    + shapeCast S1x128 (multiReduction .add [0] S128 (mulf (k1_pay3 x0 x1 x2) (k1_pay3 x0 x1 x2)) _ _ _ _) _ (ix2 (0 : Fin 1) k) = _
  rw [shapeCast_self, shapeCast_a_1a_apply]
  refine congrArg (acc (ix2 (0 : Fin 1) k) + ·)
    ((columnSum_apply (mulf (k1_pay3 x0 x1 x2) (k1_pay3 x0 x1 x2)) k).trans ?_)
  refine Finset.sum_congr rfl fun p _ => ?_
  show k1_pay3 x0 x1 x2 (ix2 p k) * k1_pay3 x0 x1 x2 (ix2 p k) = _
  rw [rectified_apply]

/-- The zero row the first point stores, read at an entry. -/
theorem zeroRow3_apply (j : S1x128.Idx) : (k1_pay1 (F := Ideal)) j = 0 := by
  unfold k1_pay1
  show Ideal.ofBits .f32 0x00000000#32 = 0
  exact Ideal.ofBits_zero_f32

/-- The zero row the first point stores into the squares output, read at an entry. -/
theorem zeroRow4_apply (j : S1x128.Idx) : (k1_pay2 (F := Ideal)) j = 0 := by
  unfold k1_pay2
  show Ideal.ofBits .f32 0x00000000#32 = 0
  exact Ideal.ofBits_zero_f32

end Cert.KernelIdeal.RegionValue.Stats

end
-- ==== Proof.StatsValue.lean ====
/-
  The value of the statistics region: what the two one-row outputs of the accumulating kernel hold after its twenty grid
  points, for any contents `V` of the arrays when the region is entered.

  Write `r n k = max (A n k * d n + b k) 0` for the rectified entry of node `n`, feature `k`, where `A` is the
  100000 by 128 aggregate, `d` the column of 100000 row factors and `b` the row of 128 biases. Point `t` of the grid sees
  rows `5000 t … 5000 t + 4999` of `A` and `d` and the whole of `b`. The first point leaves `0 + ∑_p r (p) k` in column `k` of
  the sum output, every later point adds its own 5000 rows to what the point before left; so after point `t` the output
  holds the sum of `r n k` over the first `5000 (t + 1)` rows (induction on the point; the extended reals are a
  commutative monoid under addition, so no finiteness is asked). The outputs' block is the whole one-row array and is
  written back once, after the last point: the array ends at the sum over all 100000 rows. The squares output is the same
  with `r n k * r n k`.
-/
import proofs.«174693_j24713241821268_2_alg».proof.Proof.StatsPieces
import proofs.«174693_j24713241821268_2_alg».proof.Proof.StatsPayload
import Mathlib.Util.TermReduce

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue.Stats

open Cert.KernelIdeal Cert.KernelIdeal.Gen

variable (V : (c : Dev nD) → (b : Ref sig .tc) → Buf (Elt Ideal) ((c : Thread nD τ).loc b))

/-! ## The rows a grid point sees -/

/-- Point `t` reads block `t` of the aggregate along the rows, and all of its columns. -/
theorem aggIndex : ∀ t : Fin cfg1.N, win1_0.index t 0 = t.val ∧ win1_0.index t 1 = 0 :=
  (by decide +kernel : ∀ t : Fin grid1.N, win1_0.index t 0 = t.val ∧ win1_0.index t 1 = 0)

/-- Point `t` reads block `t` of the column of row factors. -/
theorem factorIndex : ∀ t : Fin cfg1.N, win1_1.index t 0 = t.val ∧ win1_1.index t 1 = 0 :=
  (by decide +kernel : ∀ t : Fin grid1.N, win1_1.index t 0 = t.val ∧ win1_1.index t 1 = 0)

/-- Every point reads the one block of the bias row. -/
theorem biasIndex : ∀ t : Fin cfg1.N, win1_2.index t 0 = 0 ∧ win1_2.index t 1 = 0 :=
  (by decide +kernel : ∀ t : Fin grid1.N, win1_2.index t 0 = 0 ∧ win1_2.index t 1 = 0)

/-- The aggregate's block at point `t`, at `(p, k)`, is the aggregate at row `5000 t + p`, column `k`. -/
theorem aggBlock_apply (c : Dev nD) (t : Fin cfg1.N) (p : Fin 5000) (k : Fin 128) (h : 5000 * t.val + p.val < 100000) :
    (iblk1 (F := Ideal) V c 0 t : Vec Ideal S5000x128 .f32) (ix2 p k)
      = (V c main_v27 : S100000x128.Idx → EReal) (ix2 ⟨5000 * t.val + p.val, h⟩ k) := by
  unfold iblk1
  rw [View.read_apply]
  show V c main_v27 _ = V c main_v27 _
  refine congrArg _ (funext fun a => Fin.ext ?_)
  match a with
  | ⟨0, _⟩ => show win1_0.index t 0 * 5000 + 1 * p.val = 5000 * t.val + p.val; rw [(aggIndex t).1]; omega
  | ⟨1, _⟩ => show win1_0.index t 1 * 128 + 1 * k.val = k.val; rw [(aggIndex t).2]; omega

/-- The factor column's block at point `t`, at row `p`, is the column at row `5000 t + p`. -/
theorem factorBlock_apply (c : Dev nD) (t : Fin cfg1.N) (p : Fin 5000) (h : 5000 * t.val + p.val < 100000) :
    (iblk1 (F := Ideal) V c 1 t : Vec Ideal S5000x1 .f32) (ix2 p (0 : Fin 1))
      = (V c main_v12 : S100000x1.Idx → EReal) (ix2 ⟨5000 * t.val + p.val, h⟩ (0 : Fin 1)) := by
  unfold iblk1
  rw [View.read_apply]
  show V c main_v12 _ = V c main_v12 _
  refine congrArg _ (funext fun a => Fin.ext ?_)
  match a with
  | ⟨0, _⟩ => show win1_1.index t 0 * 5000 + 1 * p.val = 5000 * t.val + p.val; rw [(factorIndex t).1]; omega
  | ⟨1, _⟩ => show win1_1.index t 1 * 1 + 1 * 0 = 0; rw [(factorIndex t).2]

/-- The bias row's block at any point is the bias row. -/
theorem biasBlock_apply (c : Dev nD) (t : Fin cfg1.N) (k : Fin 128) :
    (iblk1 (F := Ideal) V c 2 t : Vec Ideal S1x128 .f32) (ix2 (0 : Fin 1) k)
      = (V c main_v13 : S1x128.Idx → EReal) (ix2 (0 : Fin 1) k) := by
  unfold iblk1
  rw [View.read_apply]
  show V c main_v13 _ = V c main_v13 _
  refine congrArg _ (funext fun a => Fin.ext ?_)
  match a with
  | ⟨0, _⟩ => show win1_2.index t 0 * 1 + 1 * 0 = 0; rw [(biasIndex t).1]
  | ⟨1, _⟩ => show win1_2.index t 1 * 128 + 1 * k.val = k.val; rw [(biasIndex t).2]; omega

/-! ## The running sums -/

/-- The rectified entry of node `n`, feature `k`, of an aggregate `A`, a column of row factors `d` and a bias row `b`. -/
def rectOf (A : S100000x128.Idx → EReal) (d : S100000x1.Idx → EReal) (b : S1x128.Idx → EReal) (n : Fin 100000)
    (k : Fin 128) : EReal :=
  max (A (ix2 n k) * d (ix2 n (0 : Fin 1)) + b (ix2 (0 : Fin 1) k)) 0

/-- The rectified entry of node `n`, feature `k`, from the arrays as the region finds them. -/
def rect (c : Dev nD) (n : Fin 100000) (k : Fin 128) : EReal :=
  rectOf (V c main_v27) (V c main_v12) (V c main_v13) n k

/-- A function `g` of the rectified entries of column `k`, as a sequence over all naturals: zero past the last row. -/
def term (g : EReal → EReal) (c : Dev nD) (k : Fin 128) (j : ℕ) : EReal :=
  if h : j < 100000 then g (rect V c ⟨j, h⟩ k) else 0

/-- What point `t` adds to column `k`: the terms of its 5000 rows. -/
theorem blockSum (g : EReal → EReal) (c : Dev nD) (t : Fin cfg1.N) (k : Fin 128)
    (x0 : Vec Ideal S5000x128 .f32) (x1 : Vec Ideal S5000x1 .f32) (x2 : Vec Ideal S1x128 .f32)
    (h0 : x0 = iblk1 (F := Ideal) V c 0 t) (h1 : x1 = iblk1 (F := Ideal) V c 1 t) (h2 : x2 = iblk1 (F := Ideal) V c 2 t) :
    ∑ p : Fin 5000, g (max (x0 (ix2 p k) * x1 (ix2 p (0 : Fin 1)) + x2 (ix2 (0 : Fin 1) k)) 0)
      = ∑ p ∈ Finset.range 5000, term V g c k (5000 * t.val + p) := by
  have hN : t.val < 20 := lt_of_lt_of_eq t.isLt (show cfg1.N = 20 from N_1)
  subst h0 h1 h2
  rw [Finset.sum_range]
  refine Finset.sum_congr rfl fun p _ => ?_
  have h : 5000 * t.val + p.val < 100000 := by have := p.isLt; omega
  rw [aggBlock_apply V c t p k h, factorBlock_apply V c t p h, biasBlock_apply V c t k]
  unfold term
  rw [dif_pos h]
  rfl

/-- Appending the 5000 terms of block `n` to the sum of the first `5000 n` terms gives the first `5000 (n + 1)`. -/
theorem extend (f : ℕ → EReal) (n : ℕ) (S T : EReal) (hS : S = ∑ j ∈ Finset.range (5000 * n), f j)
    (hT : T = ∑ p ∈ Finset.range 5000, f (5000 * n + p)) : S + T = ∑ j ∈ Finset.range (5000 * (n + 1)), f j := by
  rw [hS, hT, Nat.mul_succ, Finset.sum_range_add]

/-- After point `n` column `k` of the sum output holds the rectified entries of the first `5000 (n + 1)` rows, summed. -/
theorem runningSum (c : Dev nD) (k : Fin 128) : ∀ (n : ℕ) (h : n < cfg1.N),
    (outsAt1 (F := Ideal) V c n h).1 (ix2 (0 : Fin 1) k) = ∑ j ∈ Finset.range (5000 * (n + 1)), term V (fun r => r) c k j
  | 0, h => by
    rw [outsAt1_A V c ⟨0, h⟩ rfl]
    dsimp only
    rw [first_sum]
    refine (pointSum_apply (iblk1 V c 0 ⟨0, h⟩) (iblk1 V c 1 ⟨0, h⟩) (iblk1 V c 2 ⟨0, h⟩) zeroRow3 k).trans ?_
    refine extend (term V (fun r => r) c k) 0 _ _ ?_
      (blockSum V (fun r => r) c ⟨0, h⟩ k (iblk1 V c 0 ⟨0, h⟩) (iblk1 V c 1 ⟨0, h⟩) (iblk1 V c 2 ⟨0, h⟩) rfl rfl rfl)
    show k1_pay1 (F := Ideal) (ix2 (0 : Fin 1) k) = _
    rw [zeroRow3_apply, Nat.mul_zero, Finset.sum_range_zero]
  | n + 1, h => by
    have hN : cfg1.N = 20 := N_1
    have hB : ¬(⟨n + 1, h⟩ : Fin cfg1.N).val % 20 = 0 := by dsimp only; omega
    rw [outsAt1_B V c ⟨n + 1, h⟩ hB]
    dsimp only
    rw [later_sum]
    refine (pointSum_apply (iblk1 V c 0 ⟨n + 1, h⟩) (iblk1 V c 1 ⟨n + 1, h⟩) (iblk1 V c 2 ⟨n + 1, h⟩) _ k).trans ?_
    exact extend (term V (fun r => r) c k) (n + 1) _ _ (runningSum c k n (Nat.lt_of_succ_lt h))
      (blockSum V (fun r => r) c ⟨n + 1, h⟩ k (iblk1 V c 0 ⟨n + 1, h⟩) (iblk1 V c 1 ⟨n + 1, h⟩) (iblk1 V c 2 ⟨n + 1, h⟩)
        rfl rfl rfl)

/-- After point `n` column `k` of the squares output holds the squared rectified entries of the first `5000 (n + 1)`
    rows, summed. -/
theorem runningSumsq (c : Dev nD) (k : Fin 128) : ∀ (n : ℕ) (h : n < cfg1.N),
    (outsAt1 (F := Ideal) V c n h).2 (ix2 (0 : Fin 1) k)
      = ∑ j ∈ Finset.range (5000 * (n + 1)), term V (fun r => r * r) c k j
  | 0, h => by
    rw [outsAt1_A V c ⟨0, h⟩ rfl]
    dsimp only
    rw [first_sumsq]
    refine (pointSumsq_apply (iblk1 V c 0 ⟨0, h⟩) (iblk1 V c 1 ⟨0, h⟩) (iblk1 V c 2 ⟨0, h⟩) zeroRow4 k).trans ?_
    refine extend (term V (fun r => r * r) c k) 0 _ _ ?_
      (blockSum V (fun r => r * r) c ⟨0, h⟩ k (iblk1 V c 0 ⟨0, h⟩) (iblk1 V c 1 ⟨0, h⟩) (iblk1 V c 2 ⟨0, h⟩) rfl rfl rfl)
    show k1_pay2 (F := Ideal) (ix2 (0 : Fin 1) k) = _
    rw [zeroRow4_apply, Nat.mul_zero, Finset.sum_range_zero]
  | n + 1, h => by
    have hN : cfg1.N = 20 := N_1
    have hB : ¬(⟨n + 1, h⟩ : Fin cfg1.N).val % 20 = 0 := by dsimp only; omega
    rw [outsAt1_B V c ⟨n + 1, h⟩ hB]
    dsimp only
    rw [later_sumsq]
    refine (pointSumsq_apply (iblk1 V c 0 ⟨n + 1, h⟩) (iblk1 V c 1 ⟨n + 1, h⟩) (iblk1 V c 2 ⟨n + 1, h⟩) _ k).trans ?_
    exact extend (term V (fun r => r * r) c k) (n + 1) _ _ (runningSumsq c k n (Nat.lt_of_succ_lt h))
      (blockSum V (fun r => r * r) c ⟨n + 1, h⟩ k (iblk1 V c 0 ⟨n + 1, h⟩) (iblk1 V c 1 ⟨n + 1, h⟩)
        (iblk1 V c 2 ⟨n + 1, h⟩) rfl rfl rfl)

/-! ## The output arrays -/

/-- The last grid point. -/
abbrev lastPoint : Fin cfg1.N := ⟨19, by rw [show cfg1.N = 20 from N_1]; decide⟩

/-- What the sum output's staging row holds after the last point, as contents of the output array. -/
def sumRow (c : Dev nD) : Buf (Elt Ideal) ((c : Thread nD τ).loc main_v28_0) := (outsAt1 (F := Ideal) V c 19 lastPoint.isLt).1

/-- What the squares output's staging row holds after the last point, as contents of the output array. -/
def sumsqRow (c : Dev nD) : Buf (Elt Ideal) ((c : Thread nD τ).loc main_v28_1) := (outsAt1 (F := Ideal) V c 19 lastPoint.isLt).2

/-- The one write-back of the sum output, after the last point, writes the staging row: the block is the whole array. -/
theorem sum_flushed (c : Dev nD) (t : Fin cfg1.N) (hf : (cfg1.win 3).flush t = true) :
    (dat1 (F := Ideal) V c).flushed 3 t = ((cfg1.win 3).blk t).view.read (Elt Ideal) (sumRow V c) := by
  have hN : cfg1.N = 20 := N_1
  have h19 : t.val = 19 := by have := (flush1_3 t).mp hf; have := t.isLt; omega
  obtain rfl : t = lastPoint := Fin.ext h19
  show (cfg1.win 3).cut (grid1.coords lastPoint) ((dat1 V c).after 3 lastPoint) = _
  rw [after1_3]
  have hz' : (fun a => win1_3.index lastPoint a * main_v28_0.ty.shape.size a) = fun _ => 0 :=
    funext fun a => by fin_cases a <;> decide
  exact (Memref.read_access_unit_zero (Elt Ideal) main_v28_0 hz' (fun a => by rw [congrFun hz' a]; simp) (sumRow V c)).symm

/-- The one write-back of the squares output, after the last point, writes the staging row. -/
theorem sumsq_flushed (c : Dev nD) (t : Fin cfg1.N) (hf : (cfg1.win 4).flush t = true) :
    (dat1 (F := Ideal) V c).flushed 4 t = ((cfg1.win 4).blk t).view.read (Elt Ideal) (sumsqRow V c) := by
  have hN : cfg1.N = 20 := N_1
  have h19 : t.val = 19 := by have := (flush1_4 t).mp hf; have := t.isLt; omega
  obtain rfl : t = lastPoint := Fin.ext h19
  show (cfg1.win 4).cut (grid1.coords lastPoint) ((dat1 V c).after 4 lastPoint) = _
  rw [after1_4]
  have hz' : (fun a => win1_4.index lastPoint a * main_v28_1.ty.shape.size a) = fun _ => 0 :=
    funext fun a => by fin_cases a <;> decide
  exact (Memref.read_access_unit_zero (Elt Ideal) main_v28_1 hz' (fun a => by rw [congrFun hz' a]; simp) (sumsqRow V c)).symm

/-- The sum output array ends holding the staging row of the last point: that point's block covers the array. -/
theorem sum_final (c : Dev nD) : (dat1 (F := Ideal) V c).arrAt 3 cfg1.N = sumRow V c :=
  (dat1 V c).arrAt_eq_of_cover 3 (sumRow V c) (sum_flushed V c) fun i =>
    ⟨lastPoint, (flush1_3 lastPoint).mpr rfl, by
      show i ∈ ((View.whole main_v28_0).slice (win1_3.rect lastPoint)).set
      rw [View.set_slice_whole, Rect.mem_set_unit]
      intro a
      have h0 : (i 0 : Nat) < 1 := (i 0).isLt
      have h1 : (i 1 : Nat) < 128 := (i 1).isLt
      match a with
      | ⟨0, _⟩ =>
        show win1_3.index lastPoint 0 * win1_3.size 0 ≤ (i 0 : Nat)
          ∧ (i 0 : Nat) < win1_3.index lastPoint 0 * win1_3.size 0 + win1_3.xsize (grid1.coords lastPoint) 0
        rw [show win1_3.index lastPoint 0 * win1_3.size 0 = 0 from by decide +kernel,
          show win1_3.xsize (grid1.coords lastPoint) 0 = 1 from by decide +kernel]; omega
      | ⟨1, _⟩ =>
        show win1_3.index lastPoint 1 * win1_3.size 1 ≤ (i 1 : Nat)
          ∧ (i 1 : Nat) < win1_3.index lastPoint 1 * win1_3.size 1 + win1_3.xsize (grid1.coords lastPoint) 1
        rw [show win1_3.index lastPoint 1 * win1_3.size 1 = 0 from by decide +kernel,
          show win1_3.xsize (grid1.coords lastPoint) 1 = 128 from by decide +kernel]; omega⟩

/-- The squares output array ends holding the staging row of the last point. -/
theorem sumsq_final (c : Dev nD) : (dat1 (F := Ideal) V c).arrAt 4 cfg1.N = sumsqRow V c :=
  (dat1 V c).arrAt_eq_of_cover 4 (sumsqRow V c) (sumsq_flushed V c) fun i =>
    ⟨lastPoint, (flush1_4 lastPoint).mpr rfl, by
      show i ∈ ((View.whole main_v28_1).slice (win1_4.rect lastPoint)).set
      rw [View.set_slice_whole, Rect.mem_set_unit]
      intro a
      have h0 : (i 0 : Nat) < 1 := (i 0).isLt
      have h1 : (i 1 : Nat) < 128 := (i 1).isLt
      match a with
      | ⟨0, _⟩ =>
        show win1_4.index lastPoint 0 * win1_4.size 0 ≤ (i 0 : Nat)
          ∧ (i 0 : Nat) < win1_4.index lastPoint 0 * win1_4.size 0 + win1_4.xsize (grid1.coords lastPoint) 0
        rw [show win1_4.index lastPoint 0 * win1_4.size 0 = 0 from by decide +kernel,
          show win1_4.xsize (grid1.coords lastPoint) 0 = 1 from by decide +kernel]; omega
      | ⟨1, _⟩ =>
        show win1_4.index lastPoint 1 * win1_4.size 1 ≤ (i 1 : Nat)
          ∧ (i 1 : Nat) < win1_4.index lastPoint 1 * win1_4.size 1 + win1_4.xsize (grid1.coords lastPoint) 1
        rw [show win1_4.index lastPoint 1 * win1_4.size 1 = 0 from by decide +kernel,
          show win1_4.xsize (grid1.coords lastPoint) 1 = 128 from by decide +kernel]; omega⟩

/-- The terms of all 100000 rows, summed as a sequence, are the sum over the nodes. -/
theorem allRows (g : EReal → EReal) (c : Dev nD) (k : Fin 128) :
    ∑ j ∈ Finset.range (5000 * (19 + 1)), term V g c k j = ∑ n : Fin 100000, g (rect V c n k) := by
  rw [show 5000 * (19 + 1) = 100000 from rfl, Finset.sum_range]
  refine Finset.sum_congr rfl fun n _ => ?_
  unfold term
  rw [dif_pos n.isLt]

end Cert.KernelIdeal.RegionValue.Stats

/-! ## The two results -/

namespace Cert.KernelIdeal.RegionValue

open Cert.KernelIdeal Cert.KernelIdeal.Gen Stats

variable (V : (c : Dev nD) → (b : Ref sig .tc) → Buf (Elt Ideal) ((c : Thread nD τ).loc b))

/-- THE SUM OUTPUT: column `k` ends at the sum over the 100000 nodes of the rectified entries. -/
theorem region1_sum (c : Dev nD) (k : Fin 128) :
    (Gen.dat1 (F := Ideal) V c).arrAt 3 cfg1.N (ix2 (0 : Fin 1) k)
      = beta% (fun (A : S100000x128.Idx → EReal) (d : S100000x1.Idx → EReal) (b : S1x128.Idx → EReal) =>
          ∑ n : Fin 100000, max (A (ix2 n k) * d (ix2 n (0 : Fin 1)) + b (ix2 (0 : Fin 1) k)) 0)
        (V c main_v27) (V c main_v12) (V c main_v13) := by
  rw [sum_final V c]
  unfold sumRow
  rw [runningSum V c k 19 lastPoint.isLt]
  exact allRows V (fun r => r) c k

/-- THE SQUARES OUTPUT: column `k` ends at the sum over the 100000 nodes of the squared rectified entries. -/
theorem region1_sumsq (c : Dev nD) (k : Fin 128) :
    (Gen.dat1 (F := Ideal) V c).arrAt 4 cfg1.N (ix2 (0 : Fin 1) k)
      = beta% (fun (A : S100000x128.Idx → EReal) (d : S100000x1.Idx → EReal) (b : S1x128.Idx → EReal) =>
          ∑ n : Fin 100000, max (A (ix2 n k) * d (ix2 n (0 : Fin 1)) + b (ix2 (0 : Fin 1) k)) 0
            * max (A (ix2 n k) * d (ix2 n (0 : Fin 1)) + b (ix2 (0 : Fin 1) k)) 0)
        (V c main_v27) (V c main_v12) (V c main_v13) := by
  rw [sumsq_final V c]
  unfold sumsqRow
  rw [runningSumsq V c k 19 lastPoint.isLt]
  exact allRows V (fun r => r * r) c k

/-- THE SUM OUTPUT, over arrays named by the caller: with `A`, `D`, `B` the aggregate, the row factors and the biases as
    the region finds them, column `k` ends at `∑ n, max (A n k * D n + B k) 0`. -/
theorem region1_sum_of (c : Dev nD) (A : S100000x128.Idx → EReal) (D : S100000x1.Idx → EReal) (B : S1x128.Idx → EReal)
    (hA : V c main_v27 = A) (hD : V c main_v12 = D) (hB : V c main_v13 = B) (k : Fin 128) :
    (Gen.dat1 (F := Ideal) V c).arrAt 3 cfg1.N (ix2 (0 : Fin 1) k)
      = ∑ n : Fin 100000, max (A (ix2 n k) * D (ix2 n (0 : Fin 1)) + B (ix2 (0 : Fin 1) k)) 0 := by
  subst hA hD hB
  exact region1_sum V c k

/-- THE SQUARES OUTPUT, over arrays named by the caller: column `k` ends at the sum of the squared rectified entries. -/
theorem region1_sumsq_of (c : Dev nD) (A : S100000x128.Idx → EReal) (D : S100000x1.Idx → EReal) (B : S1x128.Idx → EReal)
    (hA : V c main_v27 = A) (hD : V c main_v12 = D) (hB : V c main_v13 = B) (k : Fin 128) :
    (Gen.dat1 (F := Ideal) V c).arrAt 4 cfg1.N (ix2 (0 : Fin 1) k)
      = ∑ n : Fin 100000, max (A (ix2 n k) * D (ix2 n (0 : Fin 1)) + B (ix2 (0 : Fin 1) k)) 0
          * max (A (ix2 n k) * D (ix2 n (0 : Fin 1)) + B (ix2 (0 : Fin 1) k)) 0 := by
  subst hA hD hB
  exact region1_sumsq V c k

end Cert.KernelIdeal.RegionValue

end
-- ==== Proof.NormPayload.lean ====
/-
  The normalisation step's block computation, read at one entry.

  On a block of 5000 rows the step takes the aggregated rows `a`, the column of per-row factors `d`, the row vectors
  `b` (bias), `μ` (mean), `v` (variance), `γ`, `β`, the input rows `x`, the residual weights `R` and the residual bias `s`,
  and produces, at row `p` and feature `q`,
      (γ_q · (max (a_pq · d_p + b_q) 0 − μ_q)) · rsqrt (v_q + ε) + β_q  +  ((∑_j x_pj · R_jq) + s_q).
  Over the extended reals narrowing to a shorter format is the identity and a matrix product into a zero accumulator is
  the plain sum of products; a row vector broadcast down the rows reads its one row, a column broadcast across the
  features reads its one column.
-/
import proofs.«174693_j24713241821268_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue.Norm

open Cert.KernelIdeal Cert.KernelIdeal.Gen Idealize.ShloMosaic Idealize.ShloMosaic.ValueIdx

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index keeps the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The product's left operand index takes the contracted feature as its column. -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

/-- The product's right operand index takes the contracted feature as its row. -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

/-- The product's right operand index keeps the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The residual's matrix product at an entry: the sum over the contracted feature of the products. -/
theorem residual_apply (x : FVec Ideal S5000x128 .f32) (R : FVec Ideal S128x128 .f32) (p : Fin 5000) (q : Fin 128) :
    k2_pay3 (F := Ideal) x R (ix2 p q) = ∑ j : Fin 128, x (ix2 p j) * R (ix2 j q) := by
  unfold k2_pay3
  simp only [Ideal.matmul_constant_zero_apply]
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]
  rfl

/-- The normalised, affinely transformed activation at an entry. -/
theorem normalised_apply (a : FVec Ideal S5000x128 .f32) (d : FVec Ideal S5000x1 .f32)
    (b v g m be : FVec Ideal S1x128 .f32) (p : Fin 5000) (q : Fin 128) :
    k2_pay2 (F := Ideal) a d b v g m be (ix2 p q)
      = (g (ix2 (0 : Fin 1) q) * (max (a (ix2 p q) * d (ix2 p (0 : Fin 1)) + b (ix2 (0 : Fin 1) q)) 0
            - m (ix2 (0 : Fin 1) q)))
          * Ideal.rsqrt (v (ix2 (0 : Fin 1) q) + Ideal.ofBits .f32 0x3727C5AC#32) + be (ix2 (0 : Fin 1) q) := by
  unfold k2_pay2
  simp only [shapeCast_self]
  simp only [addf_apply, mulf_apply, subf_apply, maximumf_apply, broadcast_apply]
  rw [broadcastTo_1b_ab_apply, broadcastTo_1b_ab_apply, broadcastTo_1b_ab_apply, broadcastTo_1b_ab_apply,
    broadcastTo_1b_ab_apply, broadcastTo_a1_ab_apply]
  show (g (ix2 (0 : Fin 1) q) * (max (a (ix2 p q) * d (ix2 p (0 : Fin 1)) + b (ix2 (0 : Fin 1) q))
      (Ideal.ofBits .f32 0x00000000#32) - m (ix2 (0 : Fin 1) q)))
    * Ideal.rsqrt (v (ix2 (0 : Fin 1) q) + Ideal.ofBits .f32 0x3727C5AC#32) + be (ix2 (0 : Fin 1) q) = _
  rw [Ideal.ofBits_zero_f32]

/-- The step's stored block at an entry: the normalised activation plus the residual. -/
theorem block_apply (a : FVec Ideal S5000x128 .f32) (d : FVec Ideal S5000x1 .f32) (b m v g be : FVec Ideal S1x128 .f32)
    (x : FVec Ideal S5000x128 .f32) (R : FVec Ideal S128x128 .f32) (s : FVec Ideal S1x128 .f32) (p : Fin 5000)
    (q : Fin 128) :
    k2_pay1 (F := Ideal) (k2_pay2 a d b v g m be) (k2_pay3 x R) s (ix2 p q)
      = ((g (ix2 (0 : Fin 1) q) * (max (a (ix2 p q) * d (ix2 p (0 : Fin 1)) + b (ix2 (0 : Fin 1) q)) 0
              - m (ix2 (0 : Fin 1) q)))
            * Ideal.rsqrt (v (ix2 (0 : Fin 1) q) + Ideal.ofBits .f32 0x3727C5AC#32) + be (ix2 (0 : Fin 1) q))
        + ((∑ j : Fin 128, x (ix2 p j) * R (ix2 j q)) + s (ix2 (0 : Fin 1) q)) := by
  unfold k2_pay1
  simp only [shapeCast_self]
  simp only [addf_apply]
  rw [broadcastTo_1b_ab_apply, normalised_apply, residual_apply]

end Cert.KernelIdeal.RegionValue.Norm

end
-- ==== Proof.NormValue.lean ====
/-
  The normalisation step over the whole array.

  The step runs over twenty blocks of 5000 rows. At block `t` it reads rows `5000 t … 5000 t + 4999` of the aggregated
  rows, of the column of per-row factors and of the input rows, the whole row vectors (bias, mean, variance, scale,
  shift, residual bias) and the whole residual weights, and writes rows `5000 t … 5000 t + 4999` of the result. So the
  block written at `t` is block `t` of ONE function of the arrays as the step finds them: at row `n`, feature `k`,
      (γ_k · (max (a_nk · d_n + b_k) 0 − μ_k)) · rsqrt (v_k + ε) + β_k  +  ((∑_j x_nj · R_jk) + s_k),
  and the twenty blocks cover the 100000 rows (row `n` lies in block `n / 5000`): the result array ends holding that
  function.
-/
import proofs.«174693_j24713241821268_2_alg».proof.Proof.Gen.KernelIdeal.Frame
import proofs.«174693_j24713241821268_2_alg».proof.Proof.NormPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace Norm

/-- The step's result at row `n`, feature `k`, as a function of the arrays it reads. -/
def outAt (AGG : S100000x128.Idx → EReal) (D : S100000x1.Idx → EReal) (B MU VAR GAM BET : S1x128.Idx → EReal)
    (X : S100000x128.Idx → EReal) (WR : S128x128.Idx → EReal) (BRES : S1x128.Idx → EReal) (n : Fin 100000)
    (k : Fin 128) : EReal :=
  ((GAM (ix2 (0 : Fin 1) k) * (max (AGG (ix2 n k) * D (ix2 n (0 : Fin 1)) + B (ix2 (0 : Fin 1) k)) 0
          - MU (ix2 (0 : Fin 1) k)))
        * Ideal.rsqrt (VAR (ix2 (0 : Fin 1) k) + Ideal.ofBits .f32 0x3727C5AC#32) + BET (ix2 (0 : Fin 1) k))
    + ((∑ j : Fin 128, X (ix2 n j) * WR (ix2 j k)) + BRES (ix2 (0 : Fin 1) k))

/-- The same as an array: the result at every index. -/
def out (AGG : S100000x128.Idx → EReal) (D : S100000x1.Idx → EReal) (B MU VAR GAM BET : S1x128.Idx → EReal)
    (X : S100000x128.Idx → EReal) (WR : S128x128.Idx → EReal) (BRES : S1x128.Idx → EReal) :
    S100000x128.Idx → EReal :=
  fun i => outAt AGG D B MU VAR GAM BET X WR BRES ⟨(i 0).val, idx2_lt0 i⟩ ⟨(i 1).val, idx2_lt1 i⟩

theorem zero_offsets : (![0, 0] : Fin 2 → Nat) = fun _ => 0 := funext fun a => by fin_cases a <;> rfl

/-- The block indices of the eleven windows at every point of the grid: the three row-blocked inputs and the output
    are at block `(t, 0)`, the others at block `(0, 0)`. -/
theorem block_indices : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = t.val ∧ win2_10.index t (1 : Fin 2) = 0) :=
  (by decide +kernel : ∀ t : Fin grid2.N, _)

section Blocks

variable (V : (c : Dev nD) → (b : Ref sig .tc) → Buf (Elt Ideal) ((c : Thread nD τ).loc b))

/-- Block `t` of the aggregated rows, at `(p, q)`, is the array at row `5000 t + p`. -/
theorem agg_block_apply (c : Dev nD) (t : Fin cfg2.N) (AGG : S100000x128.Idx → EReal) (h : V c main_v27 = AGG)
    (p : Fin 5000) (q : Fin 128) (n : Fin 100000) (hn : n.val = t.val * 5000 + p.val) :
    (iblk2 V c 0 t : S5000x128.Idx → EReal) (ix2 p q) = AGG (ix2 n q) := by
  subst h
  obtain ⟨⟨e0, e1⟩, -⟩ := block_indices t
  show (V c main_v27 : S100000x128.Idx → EReal) (((cfg2.win 0).blk t).view.emb (ix2 p q)) = _
  refine congrArg _ (funext fun a => Fin.ext ?_)
  match a with
  | ⟨0, _⟩ => show win2_0.index t (0 : Fin 2) * 5000 + 1 * p.val = n.val; omega
  | ⟨1, _⟩ => show win2_0.index t (1 : Fin 2) * 128 + 1 * q.val = q.val; omega

/-- Block `t` of the column of per-row factors, at `(p, 0)`, is the array at row `5000 t + p`. -/
theorem factor_block_apply (c : Dev nD) (t : Fin cfg2.N) (D : S100000x1.Idx → EReal) (h : V c main_v12 = D)
    (p : Fin 5000) (n : Fin 100000) (hn : n.val = t.val * 5000 + p.val) :
    (iblk2 V c 1 t : S5000x1.Idx → EReal) (ix2 p (0 : Fin 1)) = D (ix2 n (0 : Fin 1)) := by
  subst h
  obtain ⟨-, ⟨e0, e1⟩, -⟩ := block_indices t
  show (V c main_v12 : S100000x1.Idx → EReal) (((cfg2.win 1).blk t).view.emb (ix2 p (0 : Fin 1))) = _
  refine congrArg _ (funext fun a => Fin.ext ?_)
  match a with
  | ⟨0, _⟩ => show win2_1.index t (0 : Fin 2) * 5000 + 1 * p.val = n.val; omega
  | ⟨1, _⟩ => show win2_1.index t (1 : Fin 2) * 1 + 1 * 0 = 0; omega

/-- Block `t` of the input rows, at `(p, j)`, is the array at row `5000 t + p`. -/
theorem input_block_apply (c : Dev nD) (t : Fin cfg2.N) (X : S100000x128.Idx → EReal) (h : V c main_arg0 = X)
    (p : Fin 5000) (j : Fin 128) (n : Fin 100000) (hn : n.val = t.val * 5000 + p.val) :
    (iblk2 V c 7 t : S5000x128.Idx → EReal) (ix2 p j) = X (ix2 n j) := by
  subst h
  obtain ⟨-, -, -, -, -, -, -, ⟨e0, e1⟩, -⟩ := block_indices t
  show (V c main_arg0 : S100000x128.Idx → EReal) (((cfg2.win 7).blk t).view.emb (ix2 p j)) = _
  refine congrArg _ (funext fun a => Fin.ext ?_)
  match a with
  | ⟨0, _⟩ => show win2_7.index t (0 : Fin 2) * 5000 + 1 * p.val = n.val; omega
  | ⟨1, _⟩ => show win2_7.index t (1 : Fin 2) * 128 + 1 * j.val = j.val; omega

/-- The bias row's one block is the row. -/
theorem bias_block_apply (c : Dev nD) (t : Fin cfg2.N) (B : S1x128.Idx → EReal) (h : V c main_v13 = B) (q : Fin 128) :
    (iblk2 V c 2 t : S1x128.Idx → EReal) (ix2 (0 : Fin 1) q) = B (ix2 (0 : Fin 1) q) := by
  subst h
  obtain ⟨-, -, ⟨e0, e1⟩, -⟩ := block_indices t
  show (V c main_v13 : S1x128.Idx → EReal) (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- The mean row's one block is the row. -/
theorem mean_block_apply (c : Dev nD) (t : Fin cfg2.N) (MU : S1x128.Idx → EReal) (h : V c main_v30 = MU) (q : Fin 128) :
    (iblk2 V c 3 t : S1x128.Idx → EReal) (ix2 (0 : Fin 1) q) = MU (ix2 (0 : Fin 1) q) := by
  subst h
  obtain ⟨-, -, -, ⟨e0, e1⟩, -⟩ := block_indices t
  show (V c main_v30 : S1x128.Idx → EReal) (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- The variance row's one block is the row. -/
theorem var_block_apply (c : Dev nD) (t : Fin cfg2.N) (VAR : S1x128.Idx → EReal) (h : V c main_v36 = VAR) (q : Fin 128) :
    (iblk2 V c 4 t : S1x128.Idx → EReal) (ix2 (0 : Fin 1) q) = VAR (ix2 (0 : Fin 1) q) := by
  subst h
  obtain ⟨-, -, -, -, ⟨e0, e1⟩, -⟩ := block_indices t
  show (V c main_v36 : S1x128.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- The scale row's one block is the row. -/
theorem scale_block_apply (c : Dev nD) (t : Fin cfg2.N) (GAM : S1x128.Idx → EReal) (h : V c main_v14 = GAM) (q : Fin 128) :
    (iblk2 V c 5 t : S1x128.Idx → EReal) (ix2 (0 : Fin 1) q) = GAM (ix2 (0 : Fin 1) q) := by
  subst h
  obtain ⟨-, -, -, -, -, ⟨e0, e1⟩, -⟩ := block_indices t
  show (V c main_v14 : S1x128.Idx → EReal) (((cfg2.win 5).blk t).view.emb (ix2 (0 : Fin 1) q)) = _
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

/-- The shift row's one block is the row. -/
theorem shift_block_apply (c : Dev nD) (t : Fin cfg2.N) (BET : S1x128.Idx → EReal) (h : V c main_v15 = BET) (q : Fin 128) :
    (iblk2 V c 6 t : S1x128.Idx → EReal) (ix2 (0 : Fin 1) q) = BET (ix2 (0 : Fin 1) q) := by
  subst h
  obtain ⟨-, -, -, -, -, -, ⟨e0, e1⟩, -⟩ := block_indices t
  show (V c main_v15 : S1x128.Idx → EReal) (((cfg2.win 6).blk t).view.emb (ix2 (0 : Fin 1) q)) = _
  refine congrArg _ (funext fun a => Fin.ext ?_)
  match a with
  | ⟨0, _⟩ => show win2_6.index t (0 : Fin 2) * 1 + 1 * 0 = 0; omega
  | ⟨1, _⟩ => show win2_6.index t (1 : Fin 2) * 128 + 1 * q.val = q.val; omega

/-- The residual weights' one block is the matrix. -/
theorem weights_block_apply (c : Dev nD) (t : Fin cfg2.N) (WR : S128x128.Idx → EReal) (h : V c main_arg6 = WR)
    (j q : Fin 128) : (iblk2 V c 8 t : S128x128.Idx → EReal) (ix2 j q) = WR (ix2 j q) := by
  subst h
  obtain ⟨-, -, -, -, -, -, -, -, ⟨e0, e1⟩, -⟩ := block_indices t
  show (V c main_arg6 : S128x128.Idx → EReal) (((cfg2.win 8).blk t).view.emb (ix2 j q)) = _
  refine congrArg _ (funext fun a => Fin.ext ?_)
  match a with
  | ⟨0, _⟩ => show win2_8.index t (0 : Fin 2) * 128 + 1 * j.val = j.val; omega
  | ⟨1, _⟩ => show win2_8.index t (1 : Fin 2) * 128 + 1 * q.val = q.val; omega

/-- The residual bias row's one block is the row. -/
theorem rbias_block_apply (c : Dev nD) (t : Fin cfg2.N) (BRES : S1x128.Idx → EReal) (h : V c main_v16 = BRES)
    (q : Fin 128) : (iblk2 V c 9 t : S1x128.Idx → EReal) (ix2 (0 : Fin 1) q) = BRES (ix2 (0 : Fin 1) q) := by
  subst h
  obtain ⟨-, -, -, -, -, -, -, -, -, ⟨e0, e1⟩, -⟩ := block_indices t
  show (V c main_v16 : S1x128.Idx → EReal) (((cfg2.win 9).blk t).view.emb (ix2 (0 : Fin 1) q)) = _
  refine congrArg _ (funext fun a => Fin.ext ?_)
  match a with
  | ⟨0, _⟩ => show win2_9.index t (0 : Fin 2) * 1 + 1 * 0 = 0; omega
  | ⟨1, _⟩ => show win2_9.index t (1 : Fin 2) * 128 + 1 * q.val = q.val; omega

end Blocks

section Array

variable (V : (c : Dev nD) → (b : Ref sig .tc) → Buf (Elt Ideal) ((c : Thread nD τ).loc b))

/-- What point `t` writes back is block `t` of the result function of the arrays the step finds. -/
theorem flushed_eq (c : Dev nD) (AGG X : S100000x128.Idx → EReal) (D : S100000x1.Idx → EReal)
    (B MU VAR GAM BET BRES : S1x128.Idx → EReal) (WR : S128x128.Idx → EReal)
    (hAGG : V c main_v27 = AGG) (hD : V c main_v12 = D) (hB : V c main_v13 = B) (hMU : V c main_v30 = MU)
    (hVAR : V c main_v36 = VAR) (hGAM : V c main_v14 = GAM) (hBET : V c main_v15 = BET) (hX : V c main_arg0 = X)
    (hWR : V c main_arg6 = WR) (hBRES : V c main_v16 = BRES) (t : Fin cfg2.N) :
    (Gen.dat2 (F := Ideal) V c).flushed 10 t
      = ((cfg2.win 10).blk t).view.read (Elt Ideal) (out AGG D B MU VAR GAM BET X WR BRES) := by
  show (cfg2.win 10).cut (grid2.coords t) ((Gen.dat2 V c).after 10 t) = _
  rw [Gen.after2_10]
  unfold Gen.out2_10
  rw [View.canon_unit_zero zero_offsets]
  simp only [View.ld_unit_zero (S := S5000x128) zero_offsets, View.ld_unit_zero (S := S5000x1) zero_offsets,
    View.ld_unit_zero (S := S1x128) zero_offsets, View.ld_unit_zero (S := S128x128) zero_offsets]
  refine funext fun (j : S5000x128.Idx) => ?_
  obtain ⟨p, q, rfl⟩ : ∃ (p : Fin 5000) (q : Fin 128), j = ix2 p q := ⟨j 0, j 1, eq_ix2 j⟩
  have hN : cfg2.N = 20 := N_2
  have ht := t.isLt
  obtain ⟨n, hn⟩ : ∃ n : Fin 100000, n.val = t.val * 5000 + p.val :=
    ⟨⟨t.val * 5000 + p.val, by have := p.isLt; omega⟩, rfl⟩
  obtain ⟨-, -, -, -, -, -, -, -, -, -, ⟨e0, e1⟩⟩ := block_indices t
  have hemb : ((cfg2.win 10).blk t).view.emb (ix2 p q) = (ix2 n q : S100000x128.Idx) := by
    funext a; apply Fin.ext
    match a with
    | ⟨0, _⟩ => show win2_10.index t (0 : Fin 2) * 5000 + 1 * p.val = n.val; omega
    | ⟨1, _⟩ => show win2_10.index t (1 : Fin 2) * 128 + 1 * q.val = q.val; omega
  show k2_pay1 (F := Ideal) (k2_pay2 (iblk2 V c 0 t) (iblk2 V c 1 t) (iblk2 V c 2 t) (iblk2 V c 4 t) (iblk2 V c 5 t)
      (iblk2 V c 3 t) (iblk2 V c 6 t)) (k2_pay3 (iblk2 V c 7 t) (iblk2 V c 8 t)) (iblk2 V c 9 t) (ix2 p q)
    = out AGG D B MU VAR GAM BET X WR BRES (((cfg2.win 10).blk t).view.emb (ix2 p q))
  rw [hemb]
  refine (block_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) p q).trans ?_
  have hsum : ∀ (x7 : FVec Ideal S5000x128 .f32) (x8 : FVec Ideal S128x128 .f32),
      (∀ j : Fin 128, x7 (ix2 p j) = X (ix2 n j)) → (∀ j : Fin 128, x8 (ix2 j q) = WR (ix2 j q)) →
      (∑ j : Fin 128, x7 (ix2 p j) * x8 (ix2 j q)) = ∑ j : Fin 128, X (ix2 n j) * WR (ix2 j q) :=
    fun x7 x8 h7 h8 => Finset.sum_congr rfl fun j _ => by rw [h7, h8]
  rw [hsum (iblk2 V c 7 t) (iblk2 V c 8 t) (fun j => input_block_apply V c t X hX p j n hn)
      (fun j => weights_block_apply V c t WR hWR j q), agg_block_apply V c t AGG hAGG p q n hn, factor_block_apply V c t D hD p n hn,
    bias_block_apply V c t B hB q, mean_block_apply V c t MU hMU q, var_block_apply V c t VAR hVAR q,
    scale_block_apply V c t GAM hGAM q, shift_block_apply V c t BET hBET q, rbias_block_apply V c t BRES hBRES q]
  rfl

/-- An index of the result array is in point `t`'s block iff each coordinate is in the block's range on its axis. -/
theorem mem_block (t : Fin cfg2.N) (i : S100000x128.Idx) :
    i ∈ ((cfg2.win 10).blk t).view.set ↔ ∀ a : Fin 2, win2_10.index t a * S5000x128.size a ≤ (i a).val
      ∧ (i a).val < win2_10.index t a * S5000x128.size a + S5000x128.size a := by
  show i ∈ ((View.whole main_v37).slice (win2_10.rect t)).set ↔ _
  rw [View.set_slice_whole, Rect.mem_set_unit]
  exact Iff.rfl

/-- Every row is in some point's block: row `r` in the block of point `r / 5000`. -/
theorem cover (i : S100000x128.Idx) :
    ∃ t : Fin cfg2.N, (cfg2.win 10).flush t = true ∧ i ∈ ((cfg2.win 10).blk t).view.set := by
  have hN : cfg2.N = 20 := N_2
  have hi0 : (i 0).val < 100000 := (i 0).isLt
  have hi1 : (i 1).val < 128 := (i 1).isLt
  obtain ⟨t, ht⟩ : ∃ t : Fin cfg2.N, t.val = (i 0).val / 5000 := ⟨⟨(i 0).val / 5000, by omega⟩, rfl⟩
  obtain ⟨-, -, -, -, -, -, -, -, -, -, ⟨e0, e1⟩⟩ := block_indices t
  refine ⟨t, flush2_10 t, ?_⟩
  rw [mem_block]
  intro a
  match a with
  | ⟨0, _⟩ =>
    show win2_10.index t (0 : Fin 2) * 5000 ≤ (i 0).val ∧ (i 0).val < win2_10.index t (0 : Fin 2) * 5000 + 5000
    omega
  | ⟨1, _⟩ =>
    show win2_10.index t (1 : Fin 2) * 128 ≤ (i 1).val ∧ (i 1).val < win2_10.index t (1 : Fin 2) * 128 + 128
    omega

/-- The result array after the step is the result function of the arrays the step finds. -/
theorem final (c : Dev nD) (AGG X : S100000x128.Idx → EReal) (D : S100000x1.Idx → EReal)
    (B MU VAR GAM BET BRES : S1x128.Idx → EReal) (WR : S128x128.Idx → EReal)
    (hAGG : V c main_v27 = AGG) (hD : V c main_v12 = D) (hB : V c main_v13 = B) (hMU : V c main_v30 = MU)
    (hVAR : V c main_v36 = VAR) (hGAM : V c main_v14 = GAM) (hBET : V c main_v15 = BET) (hX : V c main_arg0 = X)
    (hWR : V c main_arg6 = WR) (hBRES : V c main_v16 = BRES) :
    (Gen.dat2 (F := Ideal) V c).arrAt 10 cfg2.N = out AGG D B MU VAR GAM BET X WR BRES :=
  (Gen.dat2 (F := Ideal) V c).arrAt_eq_of_cover 10 (out AGG D B MU VAR GAM BET X WR BRES)
    (fun t _ => flushed_eq V c AGG X D B MU VAR GAM BET BRES WR hAGG hD hB hMU hVAR hGAM hBET hX hWR hBRES t) cover

end Array

end Norm

/-- THE VALUE OF THE NORMALISATION STEP: after it, the result array at row `n`, feature `k`, over the arrays the step
    finds (each named by an equation). -/
theorem region2_out_of (V : (c : Dev nD) → (b : Ref sig .tc) → Buf (Elt Ideal) ((c : Thread nD τ).loc b)) (c : Dev nD)
    (AGG X : S100000x128.Idx → EReal) (D : S100000x1.Idx → EReal) (B MU VAR GAM BET BRES : S1x128.Idx → EReal)
    (WR : S128x128.Idx → EReal)
    (hAGG : V c main_v27 = AGG) (hD : V c main_v12 = D) (hB : V c main_v13 = B) (hMU : V c main_v30 = MU)
    (hVAR : V c main_v36 = VAR) (hGAM : V c main_v14 = GAM) (hBET : V c main_v15 = BET) (hX : V c main_arg0 = X)
    (hWR : V c main_arg6 = WR) (hBRES : V c main_v16 = BRES) (n : Fin 100000) (k : Fin 128) :
    (Gen.dat2 (F := Ideal) V c).arrAt 10 cfg2.N (ix2 n k)
      = ((GAM (ix2 (0 : Fin 1) k) * (max (AGG (ix2 n k) * D (ix2 n (0 : Fin 1)) + B (ix2 (0 : Fin 1) k)) 0
              - MU (ix2 (0 : Fin 1) k)))
            * Ideal.rsqrt (VAR (ix2 (0 : Fin 1) k) + Ideal.ofBits .f32 0x3727C5AC#32) + BET (ix2 (0 : Fin 1) k))
        + ((∑ j : Fin 128, X (ix2 n j) * WR (ix2 j k)) + BRES (ix2 (0 : Fin 1) k)) := by
  rw [Norm.final V c AGG X D B MU VAR GAM BET BRES WR hAGG hD hB hMU hVAR hGAM hBET hX hWR hBRES]
  rfl

end Cert.KernelIdeal.RegionValue

end
-- ==== Proof.KernelValue.lean ====
/-
  The idealized kernel's result, entry by entry, as the specification's first arrangement.

  Reading the three regions' values through the host operations between them: the first region leaves the rows
  `(x · W)(n, ·) * dinv(n)`; the host gathers them at the edges' source rows and scatter-adds them at the targets, so
  the aggregate at `(n, k)` is the sum over the edges into `n`; the second region sums the rectified activations
  `max(agg(n, k) * dinv(n) + b(k), 0)` and their squares over the nodes; the host divides by the number of nodes and
  forms the variance from the two moments; the third region normalises the activations and adds the residual.
-/
import proofs.«174693_j24713241821268_2_alg».proof.Proof.Gen.KernelIdeal.Frame
import proofs.«174693_j24713241821268_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«174693_j24713241821268_2_alg».proof.Proof.KernelHost
import proofs.«174693_j24713241821268_2_alg».proof.Proof.GcnBnSpec
import proofs.«174693_j24713241821268_2_alg».proof.Proof.LibRowGatherScatter
import proofs.«174693_j24713241821268_2_alg».proof.Proof.RefIndex
import proofs.«174693_j24713241821268_2_alg».proof.Proof.ProjValue
import proofs.«174693_j24713241821268_2_alg».proof.Proof.StatsValue
import proofs.«174693_j24713241821268_2_alg».proof.Proof.NormValue
set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

open scoped BigOperators
open Cert.GcnBn

/-- The arguments as launched, on core `c`. -/
abbrev A0 (c : Dev nD) : (⟨S100000x128, .f32⟩ : BufTy).Contents (Elt Ideal) := m ((c : Thread nD τ).loc main_arg0)
abbrev A1 (c : Dev nD) : (⟨S2x600000, .i32⟩ : BufTy).Contents (Elt Ideal) := m ((c : Thread nD τ).loc main_arg1)
abbrev A2 (c : Dev nD) : (⟨S128x128, .f32⟩ : BufTy).Contents (Elt Ideal) := m ((c : Thread nD τ).loc main_arg2)
abbrev A3 (c : Dev nD) : (⟨S128, .f32⟩ : BufTy).Contents (Elt Ideal) := m ((c : Thread nD τ).loc main_arg3)
abbrev A4 (c : Dev nD) : (⟨S128, .f32⟩ : BufTy).Contents (Elt Ideal) := m ((c : Thread nD τ).loc main_arg4)
abbrev A5 (c : Dev nD) : (⟨S128, .f32⟩ : BufTy).Contents (Elt Ideal) := m ((c : Thread nD τ).loc main_arg5)
abbrev A6 (c : Dev nD) : (⟨S128x128, .f32⟩ : BufTy).Contents (Elt Ideal) := m ((c : Thread nD τ).loc main_arg6)
abbrev A7 (c : Dev nD) : (⟨S128, .f32⟩ : BufTy).Contents (Elt Ideal) := m ((c : Thread nD τ).loc main_arg7)

/-- The edges' wrapped source indices and raw target indices, as the [E,1] columns the gathers and scatters read. -/
abbrev src (c : Dev nD) : IVec ⟨2, ![700000, 1]⟩ 32 := Cert.ReferenceIdeal.Read.val_main_v17 (F := Ideal) (A1 m c)
abbrev dst (c : Dev nD) : IVec ⟨2, ![700000, 1]⟩ 32 := Cert.ReferenceIdeal.Read.val_main_v9 (F := Ideal) (A1 m c)

abbrev hN : 0 < 100000 := by norm_num

abbrev cnt : EReal := Ideal.ofBits .f32 0x47C35000#32
abbrev eps : EReal := Ideal.ofBits .f32 0x3727C5AC#32

abbrev X (c : Dev nD) : Fin 100000 → Fin 128 → EReal := fun n j => A0 m c (ix2 n j)
abbrev Wt (c : Dev nD) : Fin 128 → Fin 128 → EReal := fun j k => A2 m c (ix2 j k)
abbrev bias (c : Dev nD) : Fin 128 → EReal := fun k => A3 m c (ix1 k)
abbrev gam (c : Dev nD) : Fin 128 → EReal := fun k => A4 m c (ix1 k)
abbrev bet (c : Dev nD) : Fin 128 → EReal := fun k => A5 m c (ix1 k)
abbrev Wres (c : Dev nD) : Fin 128 → Fin 128 → EReal := fun j k => A6 m c (ix2 j k)
abbrev bres (c : Dev nD) : Fin 128 → EReal := fun k => A7 m c (ix1 k)

/-- An [N] vector cast to an [N,1] column reads at (n, 0) the vector at n. -/
theorem column_apply {α : Type} {a : ℕ} (x : (⟨1, ![a]⟩ : Shape).Idx → α) (h : (⟨1, ![a]⟩ : Shape).ShapeCasts ⟨2, ![a, 1]⟩)
    (n : Fin a) (u : Fin 1) : shapeCast ⟨2, ![a, 1]⟩ x h (ix2 n u) = x (ix1 n) :=
  shapeCast_apply x h _ _ (by
    have hu : u.val = 0 := by omega
    rw [Shape.rowMajor_val_two, Shape.rowMajor_val_one]
    show n.val = n.val * 1 + u.val
    omega)

/-- The kernel's row scatter and row gather records are the library's. -/
theorem row_scatter_dims : scatter_S100000x128_S700000x1_S700000x128_1_0_0_1
    = Cert.RowOps.rowScatterDims 100000 700000 128 scatter_S100000x128_S700000x1_S700000x128_1_0_0_1_wf := rfl
theorem row_gather_dims : gather_S100000x128_S700000x1_S700000x128_1_0_n_n_0_1_1128
    = Cert.RowOps.rowGatherDims 100000 700000 128 gather_S100000x128_S700000x1_S700000x128_1_0_n_n_0_1_1128_wf := rfl

/-- Rows gathered at the source column and scatter-added into a zero array at the target column: at (n, k) the sum
    over the edges into n of the array at the edge's source row. -/
theorem gather_scatter_apply (zero rows : S100000x128.Idx → EReal) (hzero : ∀ i, zero i = 0)
    (dstc srcc : IVec S700000x1 32) (n : Fin 100000) (k : Fin 128) :
    Host.scatterAdd (F := Ideal) (φ := .f32) scatter_S100000x128_S700000x1_S700000x128_1_0_0_1 zero dstc
        (Host.gather (α := EReal) gather_S100000x128_S700000x1_S700000x128_1_0_n_n_0_1_1128 rows srcc) (ix2 n k)
      = ∑ e ∈ into dstc n, rows (ix2 (nodeOf hN srcc e) k) := by
  rw [row_scatter_dims, row_gather_dims]
  unfold Host.scatterAdd
  rw [Ideal.hostScatterAdd_def, Cert.RowOps.rowScatterAdd_apply, hzero, zero_add]
  unfold into
  exact Finset.sum_congr rfl fun e _ => Cert.RowOps.rowGather_apply hN _ rows srcc e k

/-- Buffer contents at the boundaries, typed as arrays of extended reals. -/
abbrev DCOL (c : Dev nD) : S100000x1.Idx → EReal := W1 m ρ c (Proc.devRef .tc main_v12)
abbrev BROW (c : Dev nD) : S1x128.Idx → EReal := W1 m ρ c (Proc.devRef .tc main_v13)
abbrev GROW (c : Dev nD) : S1x128.Idx → EReal := W1 m ρ c (Proc.devRef .tc main_v14)
abbrev BETROW (c : Dev nD) : S1x128.Idx → EReal := W1 m ρ c (Proc.devRef .tc main_v15)
abbrev BRESROW (c : Dev nD) : S1x128.Idx → EReal := W1 m ρ c (Proc.devRef .tc main_v16)
abbrev HS (c : Dev nD) : S100000x128.Idx → EReal := W2 m ρ c (Proc.devRef .tc main_v17)
abbrev AGG (c : Dev nD) : S100000x128.Idx → EReal := W3 m ρ c (Proc.devRef .tc main_v27)
abbrev SUM (c : Dev nD) : S1x128.Idx → EReal := W4 m ρ c (Proc.devRef .tc main_v28_0)
abbrev SUMSQ (c : Dev nD) : S1x128.Idx → EReal := W4 m ρ c (Proc.devRef .tc main_v28_1)
abbrev MU (c : Dev nD) : S1x128.Idx → EReal := W5 m ρ c (Proc.devRef .tc main_v30)
abbrev VAR (c : Dev nD) : S1x128.Idx → EReal := W5 m ρ c (Proc.devRef .tc main_v36)
abbrev OUT (c : Dev nD) : S100000x128.Idx → EReal := W6 m ρ c (Proc.devRef .tc main_v37)

/-- The degree column at node `n` is `dinv`. -/
theorem dcol_apply (c : Dev nD) (n : Fin 100000) : DCOL m ρ c (ix2 n 0) = dinv (dst m c) n := by
  show (W1 m ρ c (Proc.devRef .tc main_v12) : S100000x1.Idx → EReal) (ix2 n 0) = _
  rw [W1_v12, column_apply]
  exact Cert.ReferenceIdeal.RefValue.dinv_apply _ n

/-- A parameter vector cast to a [1,C] row reads at (0, k) the vector at k. -/
theorem brow_apply (c : Dev nD) (k : Fin 128) : BROW m ρ c (ix2 0 k) = bias m c k := by
  show (W1 m ρ c (Proc.devRef .tc main_v13) : S1x128.Idx → EReal) (ix2 0 k) = _
  rw [W1_v13]; exact shapeCast_a_1a_apply _ _ 0 k
theorem grow_apply (c : Dev nD) (k : Fin 128) : GROW m ρ c (ix2 0 k) = gam m c k := by
  show (W1 m ρ c (Proc.devRef .tc main_v14) : S1x128.Idx → EReal) (ix2 0 k) = _
  rw [W1_v14]; exact shapeCast_a_1a_apply _ _ 0 k
theorem betrow_apply (c : Dev nD) (k : Fin 128) : BETROW m ρ c (ix2 0 k) = bet m c k := by
  show (W1 m ρ c (Proc.devRef .tc main_v15) : S1x128.Idx → EReal) (ix2 0 k) = _
  rw [W1_v15]; exact shapeCast_a_1a_apply _ _ 0 k
theorem bresrow_apply (c : Dev nD) (k : Fin 128) : BRESROW m ρ c (ix2 0 k) = bres m c k := by
  show (W1 m ρ c (Proc.devRef .tc main_v16) : S1x128.Idx → EReal) (ix2 0 k) = _
  rw [W1_v16]; exact shapeCast_a_1a_apply _ _ 0 k

/-- The aggregate at (n, k): the sum over the edges into n of the first region's output at the edge's source row. -/
theorem agg_apply (c : Dev nD) (n : Fin 100000) (k : Fin 128) :
    AGG m ρ c (ix2 n k) = ∑ e ∈ into (dst m c) n, HS m ρ c (ix2 (nodeOf hN (src m c) e) k) := by
  show (W3 m ρ c (Proc.devRef .tc main_v27) : S100000x128.Idx → EReal) (ix2 n k) = _
  rw [W3_v27]
  refine gather_scatter_apply _ _ (fun i => ?_) _ _ n k
  rw [Cert.ReferenceIdeal.Read.val_main_v38_apply, Cert.ReferenceIdeal.Read.val_main_cst_6_apply, Ideal.ofBits_def, Ideal.ofBits_zero_f32]

/-- A scalar constant broadcast to an array reads the constant everywhere. -/
theorem splat_apply (w : BitVec 32) (i : S1x128.Idx) :
    broadcastInDim S1x128 ![] bcast_S_S1x128 (constant (F := Ideal) S_ .f32 w) i = Ideal.ofBits .f32 w := by
  unfold broadcastInDim constant
  rw [Ideal.ofBits_def]

/-- The mean row: the column sums over the number of nodes. -/
theorem mu_apply (c : Dev nD) (k : Fin 128) : MU m ρ c (ix2 0 k) = Ideal.div (SUM m ρ c (ix2 0 k)) cnt := by
  show (W5 m ρ c (Proc.devRef .tc main_v30) : S1x128.Idx → EReal) (ix2 0 k) = _
  rw [W5_v30]
  show FloatOps.hostDivf _ _ = _
  rw [Ideal.hostDivf_def, splat_apply]

/-- The variance row: the mean of the squares minus the square of the mean, clamped at zero. -/
theorem var_apply (c : Dev nD) (k : Fin 128) :
    VAR m ρ c (ix2 0 k)
      = max (Ideal.div (SUMSQ m ρ c (ix2 0 k)) cnt
          - Ideal.div (SUM m ρ c (ix2 0 k)) cnt * Ideal.div (SUM m ρ c (ix2 0 k)) cnt) 0 := by
  show (W5 m ρ c (Proc.devRef .tc main_v36) : S1x128.Idx → EReal) (ix2 0 k) = _
  rw [W5_v36]
  show FloatOps.maximumf (FloatOps.subf (FloatOps.hostDivf _ _) (FloatOps.mulf (FloatOps.hostDivf _ _) (FloatOps.hostDivf _ _))) _ = _
  rw [Ideal.maximumf_def, Ideal.subf_def, Ideal.mulf_def, Ideal.hostDivf_def, Ideal.hostDivf_def, splat_apply, splat_apply,
    Ideal.ofBits_zero_f32]

/-- The first region's output at (n, k): the dense row scaled by the degree factor. -/
theorem hs_apply (c : Dev nD) (n : Fin 100000) (k : Fin 128) :
    HS m ρ c (ix2 n k) = dense (X m c) (Wt m c) n k * dinv (dst m c) n := by
  refine (congrFun (W2_arr m ρ c 3) (ix2 n k)).trans ?_
  refine (Cert.KernelIdeal.RegionValue.region0_out_of (V1 m ρ) c (A0 m c) (A2 m c) (DCOL m ρ c)
    (W1_arg0 m ρ c) (W1_arg2 m ρ c) rfl n k).trans ?_
  rw [dcol_apply]
  rfl

/-- The rectified activation, from the aggregate, the degree column and the bias row, is the specification's. -/
theorem act_eq (c : Dev nD) (n : Fin 100000) (k : Fin 128) :
    max (AGG m ρ c (ix2 n k) * DCOL m ρ c (ix2 n 0) + BROW m ρ c (ix2 0 k)) 0
      = actK hN (src m c) (dst m c) (X m c) (Wt m c) (bias m c) n k := by
  have h : ∑ e ∈ into (dst m c) n, HS m ρ c (ix2 (nodeOf hN (src m c) e) k)
      = ∑ e ∈ into (dst m c) n,
          dense (X m c) (Wt m c) (nodeOf hN (src m c) e) k * dinv (dst m c) (nodeOf hN (src m c) e) :=
    Finset.sum_congr rfl fun e _ => hs_apply m ρ c _ k
  rw [agg_apply, h, dcol_apply, brow_apply]
  rfl

/-- The second region's first output: the activations summed over the nodes. -/
theorem sum_apply (c : Dev nD) (k : Fin 128) :
    SUM m ρ c (ix2 0 k) = ∑ n : Fin 100000, actK hN (src m c) (dst m c) (X m c) (Wt m c) (bias m c) n k := by
  have h1 : SUM m ρ c (ix2 0 k)
      = ∑ n : Fin 100000, max (AGG m ρ c (ix2 n k) * DCOL m ρ c (ix2 n 0) + BROW m ρ c (ix2 0 k)) 0 :=
    (congrFun (W4_arr m ρ c 3) (ix2 0 k)).trans
      (Cert.KernelIdeal.RegionValue.region1_sum_of (V3 m ρ) c (AGG m ρ c) (DCOL m ρ c) (BROW m ρ c)
        rfl (W3_v12 m ρ c) (W3_v13 m ρ c) k)
  rw [h1]
  exact Finset.sum_congr rfl fun n _ => act_eq m ρ c n k

/-- The second region's second output: the squared activations summed over the nodes. -/
theorem sumsq_apply (c : Dev nD) (k : Fin 128) :
    SUMSQ m ρ c (ix2 0 k)
      = ∑ n : Fin 100000, actK hN (src m c) (dst m c) (X m c) (Wt m c) (bias m c) n k
          * actK hN (src m c) (dst m c) (X m c) (Wt m c) (bias m c) n k := by
  have h1 : SUMSQ m ρ c (ix2 0 k)
      = ∑ n : Fin 100000, max (AGG m ρ c (ix2 n k) * DCOL m ρ c (ix2 n 0) + BROW m ρ c (ix2 0 k)) 0
          * max (AGG m ρ c (ix2 n k) * DCOL m ρ c (ix2 n 0) + BROW m ρ c (ix2 0 k)) 0 :=
    (congrFun (W4_arr m ρ c 4) (ix2 0 k)).trans
      (Cert.KernelIdeal.RegionValue.region1_sumsq_of (V3 m ρ) c (AGG m ρ c) (DCOL m ρ c) (BROW m ρ c)
        rfl (W3_v12 m ρ c) (W3_v13 m ρ c) k)
  rw [h1]
  exact Finset.sum_congr rfl fun n _ => by rw [act_eq m ρ c n k]

/-- THE KERNEL'S VALUE: the result buffer after the run, entry by entry, is the specification's first arrangement of
    the launch contents. -/
theorem kernel_value (c : Dev nD) (n : Fin 100000) (k : Fin 128) :
    OUT m ρ c (ix2 n k)
      = outK hN cnt eps (src m c) (dst m c) (X m c) (Wt m c) (bias m c) (gam m c) (bet m c) (Wres m c) (bres m c) n k := by
  have h1 : OUT m ρ c (ix2 n k)
      = ((GROW m ρ c (ix2 (0 : Fin 1) k) * (max (AGG m ρ c (ix2 n k) * DCOL m ρ c (ix2 n (0 : Fin 1))
              + BROW m ρ c (ix2 (0 : Fin 1) k)) 0 - MU m ρ c (ix2 (0 : Fin 1) k)))
            * Ideal.rsqrt (VAR m ρ c (ix2 (0 : Fin 1) k) + Ideal.ofBits .f32 0x3727C5AC#32)
            + BETROW m ρ c (ix2 (0 : Fin 1) k))
        + ((∑ j : Fin 128, A0 m c (ix2 n j) * A6 m c (ix2 j k)) + BRESROW m ρ c (ix2 (0 : Fin 1) k)) :=
    (congrFun (W6_arr m ρ c 10) (ix2 n k)).trans
      (Cert.KernelIdeal.RegionValue.region2_out_of (V5 m ρ) c (AGG m ρ c) (A0 m c) (DCOL m ρ c) (BROW m ρ c)
        (MU m ρ c) (VAR m ρ c) (GROW m ρ c) (BETROW m ρ c) (BRESROW m ρ c) (A6 m c)
        (W5_v27 m ρ c) (W5_v12 m ρ c) (W5_v13 m ρ c) rfl rfl (W5_v14 m ρ c) (W5_v15 m ρ c) (W5_arg0 m ρ c)
        (W5_arg6 m ρ c) (W5_v16 m ρ c) n k)
  rw [h1, grow_apply, act_eq, mu_apply, var_apply, sum_apply, sumsq_apply, betrow_apply, bresrow_apply]
  rfl

end Cert.KernelIdeal.Whole
end
-- ==== Proof.RefValue.lean ====
/-
  The reference's rectified graph convolution, read at an index.

  The reference forms, for every edge `e` of the list with the self loops appended, the weight
  `dinv(src e) * dinv(tgt e)` (both factors gathered from `deg^(-1/2)` at the wrapped and clamped indices), scales the
  gathered row of `X · W` by it, adds the scaled rows into their target nodes, adds the bias and rectifies. Read at a
  node `n` and a feature `k` this is the specification's `actR`: the maximum of
      (sum over e into n of (X · W)(src e, k) * (dinv(src e) * dinv(tgt e))) + b(k)
  and zero. The stages are read one at a time: the edge weight, the dense product, the message, the aggregate, the
  activation.
-/
import proofs.«174693_j24713241821268_2_alg».proof.Proof.RefIndex

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- There is at least one node. -/
theorem hN : 0 < 100000 := by norm_num

/-! ## The printed dimension numbers are those of the element gather, the row gather and the row scatter -/

theorem vec_gather_dims :
    gather_S100000_S700000x1_S700000_n_0_n_n_0_1_1
      = Cert.VecOps.vecGatherDims 100000 700000 gather_S100000_S700000x1_S700000_n_0_n_n_0_1_1_wf := rfl

theorem row_gather_dims :
    gather_S100000x128_S700000x1_S700000x128_1_0_n_n_0_1_1128
      = Cert.RowOps.rowGatherDims 100000 700000 128 gather_S100000x128_S700000x1_S700000x128_1_0_n_n_0_1_1128_wf := rfl

theorem row_scatter_dims :
    scatter_S100000x128_S700000x1_S700000x128_1_0_0_1
      = Cert.RowOps.rowScatterDims 100000 700000 128 scatter_S100000x128_S700000x1_S700000x128_1_0_0_1_wf := rfl

section
variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))

/-! ## Index columns computed twice -/

/-- The wrapped source column is computed a second time for the row gather: the same vector. -/
theorem v33_eq : Read.val_main_v33 (F := Ideal) x1 = Read.val_main_v17 (F := Ideal) x1 := rfl

/-- The raw target column is computed a second time for the row scatter: the same vector. -/
theorem v39_eq : Read.val_main_v39 (F := Ideal) x1 = Read.val_main_v9 (F := Ideal) x1 := rfl

/-! ## The edge weight -/

/-- `deg^(-1/2)` gathered at an index column: at edge `e` it is `dinv` of the node the column names there. -/
theorem dinv_gather (idx : IVec ⟨2, ![700000, 1]⟩ 32) (e : Fin 700000) :
    Host.gather gather_S100000_S700000x1_S700000_n_0_n_n_0_1_1 (Read.val_main_v11 (F := Ideal) x1) idx (ix1 e)
      = Cert.GcnBn.dinv (E := 700000) (Read.val_main_v9 (F := Ideal) x1) (Cert.GcnBn.nodeOf hN idx e) := by
  rw [vec_gather_dims, Cert.VecOps.vecGather_apply hN, dinv_apply]
  rfl

/-- The weight of edge `e`: `dinv(src e) * dinv(tgt e)`. -/
theorem edge_weight (e : Fin 700000) :
    Read.val_main_v26 (F := Ideal) x1 (ix1 e)
      = Cert.GcnBn.dinv (E := 700000) (Read.val_main_v9 (F := Ideal) x1)
          (Cert.GcnBn.nodeOf hN (Read.val_main_v17 (F := Ideal) x1) e)
        * Cert.GcnBn.dinv (E := 700000) (Read.val_main_v9 (F := Ideal) x1)
          (Cert.GcnBn.nodeOf hN (Read.val_main_v24 (F := Ideal) x1) e) := by
  rw [Read.val_main_v26_apply, Ideal.mulf_def]
  unfold Read.val_main_v18 Read.val_main_v25
  rw [dinv_gather, dinv_gather]

/-! ## The dense product -/

/-- The dense product `X · W` at `(n, k)`. -/
theorem dense_apply (n : Fin 100000) (k : Fin 128) :
    Read.val_main_v27 (F := Ideal) x0 x2 (ix2 n k)
      = Cert.GcnBn.dense (N := 100000) (C := 128) (K := 128) (fun n j => x0 (ix2 n j)) (fun j c => x2 (ix2 j c)) n k := by
  rw [Read.val_main_v27_apply]
  unfold Cert.GcnBn.dense
  refine Finset.sum_congr rfl fun j _ => ?_
  have hl : Read.lidx_main_v27 (ix2 n k) j = ix2 n j :=
    funext fun a => by match a with | ⟨0, _⟩ => rfl | ⟨1, _⟩ => rfl
  have hr : Read.ridx_main_v27 (ix2 n k) j = ix2 j k :=
    funext fun a => by match a with | ⟨0, _⟩ => rfl | ⟨1, _⟩ => rfl
  rw [hl, hr]

/-! ## The message of an edge -/

/-- The gathered row of `X · W` at edge `e`, feature `k`: the row of the edge's source node. -/
theorem row_gather (e : Fin 700000) (k : Fin 128) :
    Read.val_main_v34 (F := Ideal) x0 x1 x2 (ix2 e k)
      = Cert.GcnBn.dense (N := 100000) (C := 128) (K := 128) (fun n j => x0 (ix2 n j)) (fun j c => x2 (ix2 j c))
          (Cert.GcnBn.nodeOf hN (Read.val_main_v17 (F := Ideal) x1) e) k := by
  unfold Read.val_main_v34
  rw [v33_eq, row_gather_dims, Cert.RowOps.rowGather_apply hN, dense_apply]

/-- The edge weight broadcast along the features. -/
theorem weight_bcast (e : Fin 700000) (k : Fin 128) :
    Read.val_main_v36 (F := Ideal) x1 (ix2 e k) = Read.val_main_v26 (F := Ideal) x1 (ix1 e) := by
  rw [Read.val_main_v36_apply, Read.val_main_v35_apply]
  exact congrArg _ (funext fun a => by match a with | ⟨0, _⟩ => rfl)

/-- The message of edge `e` at feature `k`: its source's row of `X · W` times the edge weight. -/
theorem message (e : Fin 700000) (k : Fin 128) :
    Read.val_main_v37 (F := Ideal) x0 x1 x2 (ix2 e k)
      = Cert.GcnBn.dense (N := 100000) (C := 128) (K := 128) (fun n j => x0 (ix2 n j)) (fun j c => x2 (ix2 j c))
          (Cert.GcnBn.nodeOf hN (Read.val_main_v17 (F := Ideal) x1) e) k
        * (Cert.GcnBn.dinv (E := 700000) (Read.val_main_v9 (F := Ideal) x1)
            (Cert.GcnBn.nodeOf hN (Read.val_main_v17 (F := Ideal) x1) e)
          * Cert.GcnBn.dinv (E := 700000) (Read.val_main_v9 (F := Ideal) x1)
            (Cert.GcnBn.nodeOf hN (Read.val_main_v24 (F := Ideal) x1) e)) := by
  rw [Read.val_main_v37_apply, Ideal.mulf_def, row_gather, weight_bcast, edge_weight]

/-! ## The aggregate -/

/-- The row scatter-add of the reference at `(n, k)`: the operand there plus the updates of the edges into `n`. -/
theorem row_scatter (idx : IVec ⟨2, ![700000, 1]⟩ 32) (x : (⟨2, ![100000, 128]⟩ : Shape).Idx → EReal)
    (upd : (⟨2, ![700000, 128]⟩ : Shape).Idx → EReal) (n : Fin 100000) (k : Fin 128) :
    Host.scatterAdd (F := Ideal) (φ := .f32) scatter_S100000x128_S700000x1_S700000x128_1_0_0_1 x idx upd (ix2 n k)
      = x (ix2 n k) + ∑ e ∈ Cert.GcnBn.into (E := 700000) idx n, upd (ix2 e k) := by
  rw [row_scatter_dims]
  unfold Host.scatterAdd
  rw [Ideal.hostScatterAdd_def]
  exact Cert.RowOps.rowScatterAdd_apply _ x idx upd n k

/-- The aggregate at `(n, k)`: the sum of the messages of the edges into `n`. -/
theorem aggregate (n : Fin 100000) (k : Fin 128) :
    Read.val_main_v40 (F := Ideal) x0 x1 x2 (ix2 n k)
      = ∑ e ∈ Cert.GcnBn.into (E := 700000) (Read.val_main_v9 (F := Ideal) x1) n,
          Cert.GcnBn.dense (N := 100000) (C := 128) (K := 128) (fun n j => x0 (ix2 n j)) (fun j c => x2 (ix2 j c))
            (Cert.GcnBn.nodeOf hN (Read.val_main_v17 (F := Ideal) x1) e) k
          * (Cert.GcnBn.dinv (E := 700000) (Read.val_main_v9 (F := Ideal) x1)
              (Cert.GcnBn.nodeOf hN (Read.val_main_v17 (F := Ideal) x1) e)
            * Cert.GcnBn.dinv (E := 700000) (Read.val_main_v9 (F := Ideal) x1)
              (Cert.GcnBn.nodeOf hN (Read.val_main_v24 (F := Ideal) x1) e)) := by
  unfold Read.val_main_v40
  rw [v39_eq, row_scatter, Read.val_main_v38_apply, Read.val_main_cst_6_apply, Ideal.ofBits_def, Ideal.ofBits_zero_f32,
    zero_add]
  exact Finset.sum_congr rfl fun e _ => message x0 x1 x2 e k

/-! ## The rectified activation -/

/-- The bias broadcast along the nodes. -/
theorem bias_bcast (n : Fin 100000) (k : Fin 128) :
    Read.val_main_v42 (F := Ideal) x3 (ix2 n k) = x3 (ix1 k) := by
  rw [Read.val_main_v42_apply, Read.val_main_v41_apply]
  exact congrArg _ (funext fun a => by match a with | ⟨0, _⟩ => rfl)

/-- THE ACTIVATION at `(n, k)` is the specification's `actR`. -/
theorem act_apply (n : Fin 100000) (k : Fin 128) :
    Read.val_main_v44 (F := Ideal) x0 x1 x2 x3 (ix2 n k)
      = Cert.GcnBn.actR (N := 100000) (E := 700000) (C := 128) (K := 128) hN (Read.val_main_v17 (F := Ideal) x1)
          (Read.val_main_v24 (F := Ideal) x1) (Read.val_main_v9 (F := Ideal) x1)
          (fun n j => x0 (ix2 n j)) (fun j c => x2 (ix2 j c)) (fun c => x3 (ix1 c)) n k := by
  rw [Read.val_main_v44_apply, Ideal.maximumf_def, Read.val_main_v43_apply, Ideal.addf_def, aggregate, bias_bcast,
    Read.val_main_call0_v0_apply, Read.val_main_call0_cst_apply, Ideal.ofBits_def, Ideal.ofBits_zero_f32]
  rfl

end

/-- THE REFERENCE'S ACTIVATION at node `n`, feature `k`, is the specification's `actR` of the argument arrays and the
    reference's three index columns (wrapped source, wrapped target, raw target). -/
theorem ref_act (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (n : Fin 100000) (k : Fin 128) :
    Read.val_main_v44 (F := Ideal) x0 x1 x2 x3 (ix2 n k)
      = Cert.GcnBn.actR (N := 100000) (E := 700000) (C := 128) (K := 128) (by norm_num)
          (Read.val_main_v17 (F := Ideal) x1) (Read.val_main_v24 (F := Ideal) x1) (Read.val_main_v9 (F := Ideal) x1)
          (fun n j => x0 (ix2 n j)) (fun j c => x2 (ix2 j c)) (fun c => x3 (ix1 c)) n k :=
  act_apply x0 x1 x2 x3 n k

end Cert.ReferenceIdeal.RefValue

end
-- ==== Proof.RefTail.lean ====
/-
  The reference's last stretch, read at an entry, given its rectified activations.

  From the activations r (an array [100000,128], here any function R that agrees with it entry by entry) the
  reference computes, feature by feature, the mean over the 100000 nodes (the sum from zero, divided by the count
  100000.0), the biased variance as the mean of the squared deviations from that mean, the normalised and affinely
  transformed activation  gamma * (r - mean) * rsqrt(var + eps) + beta,  and adds the dense residual  x · W_res + b_res.
  Every per-feature vector reaches the [100000,128] arrays through two broadcasts ([128] to [1,128] to [100000,128]),
  so at entry (n, k) each reads its entry k. The module reads the chain stage by stage — the mean, the deviations, the
  variance, the normalised activation, the residual — and ends with the result at entry (n, k) as the specification's
  finish of mean, varR and resid, associated exactly as the operations are.
-/
import proofs.«174693_j24713241821268_2_alg».proof.Proof.Gen.ReferenceIdeal.Read
import proofs.«174693_j24713241821268_2_alg».proof.Proof.GcnBnSpec

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 : (⟨S128, .f32⟩ : BufTy).Contents (Elt Ideal))
  (R : Fin 100000 → Fin 128 → EReal)

/-- The number of nodes as the reference divides by it. -/
abbrev nodeCount : EReal := Ideal.ofBits .f32 0x47C35000#32

/-- The mean over the nodes of feature k: the activations' column sum from zero, divided by the count. -/
theorem ref_mean (hR : ∀ (n : Fin 100000) (k : Fin 128), Read.val_main_v44 (F := Ideal) x0 x1 x2 x3 (ix2 n k) = R n k) (k : Fin 128) :
    Read.val_main_v47 (F := Ideal) x0 x1 x2 x3 (ix1 k) = Cert.GcnBn.mean nodeCount R k := by
  rw [Read.val_main_v47_apply, Read.val_main_v45_apply, Read.val_main_v46_apply, Read.val_main_cst_8_apply, Read.val_main_cst_7_apply]
  unfold Cert.GcnBn.mean
  simp only [Ideal.hostDivf_def, Ideal.ofBits_def, Ideal.ofBits_zero_f32, zero_add]
  refine congrArg (Ideal.div · nodeCount) (Finset.sum_congr rfl fun n _ => ?_)
  have e : Read.idx_main_v45 (ix1 k) n = ix2 n k := funext fun a => Fin.ext (by match a with | ⟨0, _⟩ => rfl | ⟨1, _⟩ => rfl)
  rw [e, hR]

/-- The deviation from the mean as the variance's sum reads it: the mean reaches entry (n, k) through two broadcasts. -/
theorem ref_deviation_var (hR : ∀ (n : Fin 100000) (k : Fin 128), Read.val_main_v44 (F := Ideal) x0 x1 x2 x3 (ix2 n k) = R n k)
    (n : Fin 100000) (k : Fin 128) :
    Read.val_main_v50 (F := Ideal) x0 x1 x2 x3 (ix2 n k) = R n k - Cert.GcnBn.mean nodeCount R k := by
  have e : Read.idx_main_v48 (Read.idx_main_v49 (ix2 n k)) = ix1 k := funext fun a => Fin.ext (by match a with | ⟨0, _⟩ => rfl)
  rw [Read.val_main_v50_apply, Read.val_main_v49_apply, Read.val_main_v48_apply, e, hR, ref_mean x0 x1 x2 x3 R hR]
  rfl

/-- The same deviation as the normalisation reads it (the reference broadcasts the mean a second time). -/
theorem ref_deviation_norm (hR : ∀ (n : Fin 100000) (k : Fin 128), Read.val_main_v44 (F := Ideal) x0 x1 x2 x3 (ix2 n k) = R n k)
    (n : Fin 100000) (k : Fin 128) :
    Read.val_main_v57 (F := Ideal) x0 x1 x2 x3 (ix2 n k) = R n k - Cert.GcnBn.mean nodeCount R k := by
  have e : Read.idx_main_v55 (Read.idx_main_v56 (ix2 n k)) = ix1 k := funext fun a => Fin.ext (by match a with | ⟨0, _⟩ => rfl)
  rw [Read.val_main_v57_apply, Read.val_main_v56_apply, Read.val_main_v55_apply, e, hR, ref_mean x0 x1 x2 x3 R hR]
  rfl

/-- The biased variance of feature k: the mean of the squared deviations. -/
theorem ref_var (hR : ∀ (n : Fin 100000) (k : Fin 128), Read.val_main_v44 (F := Ideal) x0 x1 x2 x3 (ix2 n k) = R n k) (k : Fin 128) :
    Read.val_main_v54 (F := Ideal) x0 x1 x2 x3 (ix1 k) = Cert.GcnBn.varR nodeCount R k := by
  rw [Read.val_main_v54_apply, Read.val_main_v52_apply, Read.val_main_v53_apply, Read.val_main_cst_10_apply, Read.val_main_cst_9_apply]
  unfold Cert.GcnBn.varR
  simp only [Ideal.hostDivf_def, Ideal.ofBits_def, Ideal.ofBits_zero_f32, zero_add]
  refine congrArg (Ideal.div · nodeCount) (Finset.sum_congr rfl fun n _ => ?_)
  have e : Read.idx_main_v52 (ix1 k) n = ix2 n k := funext fun a => Fin.ext (by match a with | ⟨0, _⟩ => rfl | ⟨1, _⟩ => rfl)
  rw [e, Read.val_main_v51_apply, ref_deviation_var x0 x1 x2 x3 R hR]
  rfl

/-- The normalised, affinely transformed activation at entry (n, k). -/
theorem ref_norm (hR : ∀ (n : Fin 100000) (k : Fin 128), Read.val_main_v44 (F := Ideal) x0 x1 x2 x3 (ix2 n k) = R n k)
    (n : Fin 100000) (k : Fin 128) :
    Read.val_main_v69 (F := Ideal) x0 x1 x2 x3 x4 x5 (ix2 n k)
      = (x4 (ix1 k) * (R n k - Cert.GcnBn.mean nodeCount R k))
          * Ideal.rsqrt (Cert.GcnBn.varR nodeCount R k + Ideal.ofBits .f32 0x3727C5AC#32) + x5 (ix1 k) := by
  have eg : Read.idx_main_v58 (Read.idx_main_v59 (ix2 n k)) = ix1 k := funext fun a => Fin.ext (by match a with | ⟨0, _⟩ => rfl)
  have es : Read.idx_main_v64 (Read.idx_main_v65 (ix2 n k)) = ix1 k := funext fun a => Fin.ext (by match a with | ⟨0, _⟩ => rfl)
  have eb : Read.idx_main_v67 (Read.idx_main_v68 (ix2 n k)) = ix1 k := funext fun a => Fin.ext (by match a with | ⟨0, _⟩ => rfl)
  rw [Read.val_main_v69_apply, Read.val_main_v66_apply, Read.val_main_v60_apply, Read.val_main_v59_apply, Read.val_main_v58_apply, eg,
    ref_deviation_norm x0 x1 x2 x3 R hR, Read.val_main_v65_apply, Read.val_main_v64_apply, es, Read.val_main_v63_apply,
    Read.val_main_v62_apply, ref_var x0 x1 x2 x3 R hR, Read.val_main_v61_apply, Read.val_main_cst_11_apply,
    Read.val_main_v68_apply, Read.val_main_v67_apply, eb]
  rfl

/-- The residual at entry (n, k): the dense product of the features with the residual weights, plus the residual bias. -/
theorem ref_resid (n : Fin 100000) (k : Fin 128) :
    Read.val_main_v73 (F := Ideal) x0 x6 x7 (ix2 n k)
      = Cert.GcnBn.resid (fun n j => x0 (ix2 n j)) (fun j c => x6 (ix2 j c)) (fun c => x7 (ix1 c)) n k := by
  have eb : Read.idx_main_v71 (Read.idx_main_v72 (ix2 n k)) = ix1 k := funext fun a => Fin.ext (by match a with | ⟨0, _⟩ => rfl)
  have el : ∀ j : Fin 128, Read.lidx_main_v70 (ix2 n k) j = ix2 n j := fun j => funext fun a => Fin.ext (by match a with | ⟨0, _⟩ => rfl | ⟨1, _⟩ => rfl)
  have er : ∀ j : Fin 128, Read.ridx_main_v70 (ix2 n k) j = ix2 j k := fun j => funext fun a => Fin.ext (by match a with | ⟨0, _⟩ => rfl | ⟨1, _⟩ => rfl)
  rw [Read.val_main_v73_apply, Read.val_main_v70_apply, Read.val_main_v72_apply, Read.val_main_v71_apply, eb]
  simp only [el, er]
  rfl

/-- THE TAIL: the reference's result at entry (n, k), from its rectified activations. -/
theorem ref_tail (hR : ∀ (n : Fin 100000) (k : Fin 128), Read.val_main_v44 (F := Ideal) x0 x1 x2 x3 (ix2 n k) = R n k)
    (n : Fin 100000) (k : Fin 128) :
    Read.val_main_v74 (F := Ideal) x0 x1 x2 x3 x4 x5 x6 x7 (ix2 n k)
      = Cert.GcnBn.finish (Ideal.ofBits .f32 0x3727C5AC#32) (fun c => x4 (ix1 c)) (fun c => x5 (ix1 c)) R
          (Cert.GcnBn.mean (Ideal.ofBits .f32 0x47C35000#32) R) (Cert.GcnBn.varR (Ideal.ofBits .f32 0x47C35000#32) R)
          (Cert.GcnBn.resid (fun n j => x0 (ix2 n j)) (fun j c => x6 (ix2 j c)) (fun c => x7 (ix1 c))) n k := by
  rw [Read.val_main_v74_apply, ref_norm x0 x1 x2 x3 x4 x5 R hR, ref_resid x0 x6 x7]
  rfl

end Cert.ReferenceIdeal.RefValue

end
-- ==== Proof.LibRealSums.lean ====
/-
  General lemmas on extended reals that are real numbers. `IsR a` says the extended real `a` is (the coercion of) a real
  number; real numbers are closed under sums, products, maxima and finite sums, and on them the extended reals' arithmetic
  is the reals'. Consequences: a count of ones is a natural number, division by a nonzero real is multiplication by its
  reciprocal, and a finite aggregation (a sum over a finite set plus one more term, scaled by a constant) commutes with a
  linear projection `x ↦ ∑ k, x k * W k`.
-/
import Idealize.ShloMosaic.PureOps.Ideal

noncomputable section

namespace Cert.RealSums

open Idealize.ShloMosaic
open scoped BigOperators

/-- An extended real is real when it is the coercion of a real number (it is neither `⊥` nor `⊤`). -/
def IsR (a : EReal) : Prop := ∃ r : ℝ, a = (r : EReal)

/-- The coercion of a real number is real. -/
theorem IsR.coe (r : ℝ) : IsR (r : EReal) := ⟨r, rfl⟩

/-- Zero is real. -/
theorem IsR.zero : IsR 0 := ⟨0, rfl⟩

/-- One is real. -/
theorem IsR.one : IsR 1 := ⟨1, rfl⟩

/-- The sum of two reals is real. -/
theorem IsR.add {a b : EReal} (ha : IsR a) (hb : IsR b) : IsR (a + b) := by
  obtain ⟨x, rfl⟩ := ha
  obtain ⟨y, rfl⟩ := hb
  exact ⟨x + y, (EReal.coe_add x y).symm⟩

/-- The product of two reals is real. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- The maximum of two reals is real. -/
theorem IsR.max {a b : EReal} (ha : IsR a) (hb : IsR b) : IsR (Max.max a b) := by
  obtain ⟨x, rfl⟩ := ha
  obtain ⟨y, rfl⟩ := hb
  rcases le_total x y with h | h
  · exact ⟨y, max_eq_right (EReal.coe_le_coe_iff.2 h)⟩
  · exact ⟨x, max_eq_left (EReal.coe_le_coe_iff.2 h)⟩

/-- A finite sum of reals is real. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The coercion from the reals to the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of ones over a finite set is the set's cardinality. -/
theorem sum_one_eq_card {ι : Type*} (s : Finset ι) : (∑ _i ∈ s, (1 : EReal)) = ((s.card : ℝ) : EReal) := by
  rw [Finset.sum_const, nsmul_one, EReal.coe_coe_eq_natCast]

/-- One more than a count of ones, started at zero, is a positive real number. -/
theorem count_add_one_pos {ι : Type*} (s : Finset ι) :
    ∃ d : ℝ, 0 < d ∧ ((0 : EReal) + ∑ _i ∈ s, (1 : EReal)) + 1 = (d : EReal) := by
  refine ⟨(s.card : ℝ) + 1, by positivity, ?_⟩
  rw [sum_one_eq_card, zero_add, EReal.coe_add, EReal.coe_one]

/-- Multiplying by the quotient `1 / d` of a nonzero real `d` is dividing by `d`. -/
theorem mul_div_one {d : ℝ} (hd : d ≠ 0) (a : EReal) : a * Ideal.div 1 (d : EReal) = Ideal.div a (d : EReal) := by
  rw [Ideal.div_coe hd, Ideal.div_coe hd, one_mul]

/-- The quotient of one by a nonzero real `d` is the real number `1 / d`. -/
theorem div_one_isR {d : ℝ} (hd : d ≠ 0) : Ideal.div 1 (d : EReal) = ((1 / d : ℝ) : EReal) := by
  rw [Ideal.div_coe hd, one_mul]

/-- Aggregation commutes with a linear projection: summing the projections `∑ k, x k * W k` of finitely many real rows,
    adding one more row's projection and scaling by a real constant `c` gives the projection of the row that sums the rows
    coordinatewise, adds the extra row and scales by `c`. -/
theorem aggregate_project {ε : Type*} (P : Finset ε) {K : ℕ} (hrow : ε → Fin K → EReal) (hn : Fin K → EReal)
    (W : Fin K → EReal) (c : EReal) (hh : ∀ e k, IsR (hrow e k)) (hhn : ∀ k, IsR (hn k)) (hW : ∀ k, IsR (W k))
    (hc : IsR c) :
    ((0 + ∑ e ∈ P, ∑ k, hrow e k * W k) + ∑ k, hn k * W k) * c
      = ∑ k, (((0 + ∑ e ∈ P, hrow e k) + hn k) * c) * W k := by
  have hh' : ∀ e k, ∃ r : ℝ, hrow e k = (r : EReal) := hh
  have hhn' : ∀ k, ∃ r : ℝ, hn k = (r : EReal) := hhn
  have hW' : ∀ k, ∃ r : ℝ, W k = (r : EReal) := hW
  choose H hH using hh'
  choose N hN using hhn'
  choose V hV using hW'
  obtain ⟨C, rfl⟩ := hc
  -- everything is the coercion of a real expression
  simp only [hH, hN, hV, zero_add, ← EReal.coe_mul, ← coe_sum, ← EReal.coe_add]
  -- the identity in the reals: exchange the two sums, then distribute
  congr 1
  rw [Finset.sum_comm, ← Finset.sum_add_distrib, Finset.sum_mul]
  refine Finset.sum_congr rfl fun k _ => ?_
  rw [← Finset.sum_mul]
  ring

end Cert.RealSums

end
-- ==== Proof.GcnBnLawPre.lean ====
/-
  The two arrangements of the graph convolution agree before the normalisation.

  The factor `dinv n` is a positive real number whenever some edge goes into `n`: a sum of ones over a nonempty finite
  set is its cardinality, and the reciprocal square root of a positive real `d` is `(√d)⁻¹`. A nonnegative real factor
  distributes over a finite sum of extended reals, so scaling the aggregated rows by `dinv n` after the aggregation is
  scaling every message by it; and for an edge into `n` the wrapped target index names `n`. Hence the pre-activations
  `preK` and `preR` agree pointwise, and so do the rectified activations. With real inputs every activation is a real
  number.
-/
import Idealize.ShloMosaic.PureOps.Ideal
import proofs.«174693_j24713241821268_2_alg».proof.Proof.GcnBnSpec
import proofs.«174693_j24713241821268_2_alg».proof.Proof.LibRealSums

noncomputable section

open scoped BigOperators

namespace Cert.GcnBn

open Idealize.ShloMosaic Idealize.ShloMosaic.ValueIdx Cert.RealSums

variable {N E C K : ℕ}

/-- The reciprocal square root of the degree of a node with an incoming edge is a positive real number. -/
theorem dinv_pos_real (dst : IVec ⟨2, ![E, 1]⟩ 32) (n : Fin N) (h : (into dst n).Nonempty) :
    ∃ d : ℝ, 0 < d ∧ dinv dst n = (d : EReal) := by
  have hc : (0 : ℝ) < ((into dst n).card : ℝ) := by exact_mod_cast Finset.card_pos.2 h
  refine ⟨(Real.sqrt ((into dst n).card : ℝ))⁻¹, inv_pos.2 (Real.sqrt_pos.2 hc), ?_⟩
  rw [dinv, sum_one_eq_card, Ideal.rsqrt_coe, if_neg (not_lt.2 hc.le), if_neg hc.ne']

/-- With an edge into every node, every `dinv` is real. -/
theorem dinv_isR (dst : IVec ⟨2, ![E, 1]⟩ 32) (hself : ∀ n : Fin N, (into dst n).Nonempty) (n : Fin N) :
    IsR (dinv dst n) := by
  obtain ⟨d, _, hd⟩ := dinv_pos_real dst n (hself n)
  exact ⟨d, hd⟩

/-- A nonnegative real factor distributes over a finite sum of extended reals. -/
theorem sum_mul_nonneg_real {ι : Type*} (s : Finset ι) (f : ι → EReal) {d : ℝ} (hd : 0 ≤ d) :
    (∑ i ∈ s, f i) * (d : EReal) = ∑ i ∈ s, f i * (d : EReal) := by
  classical
  induction s using Finset.induction_on with
  | empty => rw [Finset.sum_empty, Finset.sum_empty, zero_mul]
  | insert a s ha ih =>
    rw [Finset.sum_insert ha, Finset.sum_insert ha,
      EReal.right_distrib_of_nonneg_of_ne_top (EReal.coe_nonneg.2 hd) (EReal.coe_ne_top d), ih]

/-- The two pre-activations agree: the target's factor moves inside the aggregation. -/
theorem preK_eq_preR (hN : 0 < N) (src dstw dst : IVec ⟨2, ![E, 1]⟩ 32) (X : Fin N → Fin K → EReal)
    (W : Fin K → Fin C → EReal) (b : Fin C → EReal) (hself : ∀ n : Fin N, (into dst n).Nonempty)
    (hwrap : ∀ (n : Fin N) (e : Fin E), e ∈ into dst n → nodeOf hN dstw e = n) (n : Fin N) (c : Fin C) :
    preK hN src dst X W b n c = preR hN src dstw dst X W b n c := by
  obtain ⟨d, hd, hdn⟩ := dinv_pos_real dst n (hself n)
  rw [preK, preR, hdn, sum_mul_nonneg_real _ _ hd.le]
  congr 1
  refine Finset.sum_congr rfl fun e he => ?_
  rw [hwrap n e he, hdn, mul_assoc]

/-- The rectified activations of the two arrangements are the same function. -/
theorem actK_eq_actR (hN : 0 < N) (src dstw dst : IVec ⟨2, ![E, 1]⟩ 32) (X : Fin N → Fin K → EReal)
    (W : Fin K → Fin C → EReal) (b : Fin C → EReal) (hself : ∀ n : Fin N, (into dst n).Nonempty)
    (hwrap : ∀ (n : Fin N) (e : Fin E), e ∈ into dst n → nodeOf hN dstw e = n) :
    actK hN src dst X W b = actR hN src dstw dst X W b := by
  funext n c
  rw [actK, actR, preK_eq_preR hN src dstw dst X W b hself hwrap n c]

/-- A dense product of real matrices is real. -/
theorem dense_isR (X : Fin N → Fin K → EReal) (W : Fin K → Fin C → EReal) (hX : ∀ n j, IsR (X n j))
    (hW : ∀ j c, IsR (W j c)) (n : Fin N) (c : Fin C) : IsR (dense X W n c) :=
  IsR.sum _ _ fun j _ => (hX n j).mul (hW j c)

/-- With real inputs and an edge into every node, every rectified activation is a real number. -/
theorem actK_isR (hN : 0 < N) (src dst : IVec ⟨2, ![E, 1]⟩ 32) (X : Fin N → Fin K → EReal)
    (W : Fin K → Fin C → EReal) (b : Fin C → EReal) (hX : ∀ n j, IsR (X n j)) (hW : ∀ j c, IsR (W j c))
    (hb : ∀ c, IsR (b c)) (hself : ∀ n : Fin N, (into dst n).Nonempty) (n : Fin N) (c : Fin C) :
    IsR (actK hN src dst X W b n c) := by
  rw [actK, preK]
  refine IsR.max (IsR.add (IsR.mul (IsR.sum _ _ fun e _ => ?_) (dinv_isR dst hself n)) (hb c)) IsR.zero
  exact (dense_isR X W hX hW _ c).mul (dinv_isR dst hself _)

end Cert.GcnBn

end
-- ==== Proof.LibMomentVariance.lean ====
/-
  General lemma: the biased variance from the two moments is the mean of the squared deviations.

  For real numbers `r_0, …, r_{N-1}` with `N > 0`, sum `S`, sum of squares `Q` and mean `μ = S / N`,
      max (Q / N − μ · μ) 0 = (∑ (r_i − μ)²) / N,
  because `∑ (r_i − μ)² = Q − N μ²` and a sum of squares is nonnegative. On the extended reals the identity needs the
  `r_i` to be real numbers (a difference of infinities has no meaning): with real witnesses every term is the coercion
  of a real expression, division by the nonzero real `N` is multiplication by `1 / N`, and the identity is the one in
  the reals.
-/
import Idealize.ShloMosaic.PureOps.Ideal
import proofs.«174693_j24713241821268_2_alg».proof.Proof.LibRealSums

noncomputable section

open scoped BigOperators

namespace Cert.MomentVariance

open Idealize.ShloMosaic Cert.RealSums

/-- The sum of the squared deviations from `μ = S / N` is the sum of the squares minus `N μ²`. -/
theorem real_sum_sq_dev {N : ℕ} (hN : 0 < N) (R : Fin N → ℝ) :
    ∑ n, (R n - (∑ m, R m) * (1 / (N : ℝ))) * (R n - (∑ m, R m) * (1 / (N : ℝ)))
      = (∑ n, R n * R n) - (N : ℝ) * (((∑ m, R m) * (1 / (N : ℝ))) * ((∑ m, R m) * (1 / (N : ℝ)))) := by
  have hN' : (N : ℝ) ≠ 0 := Nat.cast_ne_zero.2 hN.ne'
  set S : ℝ := ∑ m, R m with hS
  have hexp : ∀ n, (R n - S * (1 / (N : ℝ))) * (R n - S * (1 / (N : ℝ)))
      = R n * R n - 2 * (S * (1 / (N : ℝ))) * R n + (S * (1 / (N : ℝ))) * (S * (1 / (N : ℝ))) := fun n => by ring
  simp only [hexp]
  rw [Finset.sum_add_distrib, Finset.sum_sub_distrib, ← Finset.mul_sum, Finset.sum_const, Finset.card_univ,
    Fintype.card_fin, nsmul_eq_mul, ← hS]
  field_simp
  ring

/-- The variance law in the reals: the clamped difference of moments is the mean squared deviation. -/
theorem real_var_law {N : ℕ} (hN : 0 < N) (R : Fin N → ℝ) :
    max ((∑ n, R n * R n) * (1 / (N : ℝ)) - ((∑ m, R m) * (1 / (N : ℝ))) * ((∑ m, R m) * (1 / (N : ℝ)))) 0
      = (∑ n, (R n - (∑ m, R m) * (1 / (N : ℝ))) * (R n - (∑ m, R m) * (1 / (N : ℝ)))) * (1 / (N : ℝ)) := by
  have hN' : (N : ℝ) ≠ 0 := Nat.cast_ne_zero.2 hN.ne'
  have hnn : 0 ≤ (∑ n, (R n - (∑ m, R m) * (1 / (N : ℝ))) * (R n - (∑ m, R m) * (1 / (N : ℝ)))) * (1 / (N : ℝ)) :=
    mul_nonneg (Finset.sum_nonneg fun n _ => mul_self_nonneg _) (by positivity)
  have heq : (∑ n, R n * R n) * (1 / (N : ℝ)) - ((∑ m, R m) * (1 / (N : ℝ))) * ((∑ m, R m) * (1 / (N : ℝ)))
      = (∑ n, (R n - (∑ m, R m) * (1 / (N : ℝ))) * (R n - (∑ m, R m) * (1 / (N : ℝ)))) * (1 / (N : ℝ)) := by
    rw [real_sum_sq_dev hN R]
    field_simp
  rw [heq]
  exact max_eq_left hnn

/-- The variance law on the extended reals, for real numbers `r_n` and the count `N > 0` as a real: the biased
    variance from the two moments, clamped at zero, is the mean of the squared deviations from the mean. -/
theorem moments_eq_mean_sq_dev {N : ℕ} (hN : 0 < N) (cnt : EReal) (hcnt : cnt = ((N : ℝ) : EReal)) (r : Fin N → EReal)
    (hr : ∀ n, IsR (r n)) :
    max (Ideal.div (∑ n, r n * r n) cnt - Ideal.div (∑ n, r n) cnt * Ideal.div (∑ n, r n) cnt) 0
      = Ideal.div (∑ n, (r n - Ideal.div (∑ n, r n) cnt) * (r n - Ideal.div (∑ n, r n) cnt)) cnt := by
  have hr' : ∀ n, ∃ x : ℝ, r n = (x : EReal) := hr
  choose R hR using hr'
  have hN' : (N : ℝ) ≠ 0 := Nat.cast_ne_zero.2 hN.ne'
  obtain rfl : r = fun n => ((R n : ℝ) : EReal) := funext hR
  subst hcnt
  have hmean : Ideal.div (∑ n, ((R n : ℝ) : EReal)) ((N : ℝ) : EReal) = (((∑ n, R n) * (1 / (N : ℝ)) : ℝ) : EReal) := by
    rw [Ideal.div_coe hN', ← coe_sum, ← EReal.coe_mul]
  rw [hmean, Ideal.div_coe hN', Ideal.div_coe hN']
  simp only [← EReal.coe_mul, ← EReal.coe_sub, ← coe_sum]
  rw [← real_var_law hN R]
  rcases le_total ((∑ n, R n * R n) * (1 / (N : ℝ))
      - ((∑ m, R m) * (1 / (N : ℝ))) * ((∑ m, R m) * (1 / (N : ℝ)))) 0 with h | h
  · rw [max_eq_right h, max_eq_right (by exact_mod_cast h), EReal.coe_zero]
  · rw [max_eq_left h, max_eq_left (by exact_mod_cast h)]

end Cert.MomentVariance

end
-- ==== Proof.GcnBnLawVar.lean ====
/-
  The two biased variances of the specification agree on real-valued activations: the variance from the two moments,
  clamped at zero, is the mean of the squared deviations from the mean (the general variance law, applied feature by
  feature).
-/
import Idealize.ShloMosaic.PureOps.Ideal
import proofs.«174693_j24713241821268_2_alg».proof.Proof.GcnBnSpec
import proofs.«174693_j24713241821268_2_alg».proof.Proof.LibRealSums
import proofs.«174693_j24713241821268_2_alg».proof.Proof.LibMomentVariance

noncomputable section

open scoped BigOperators

namespace Cert.GcnBn

open Idealize.ShloMosaic Cert.RealSums

variable {N C : ℕ}

/-- The mean of real numbers over `N > 0` nodes, as the coercion of a real number. -/
theorem mean_coe (hN : 0 < N) (cnt : EReal) (hcnt : cnt = ((N : ℝ) : EReal)) (R : Fin N → Fin C → ℝ) (c : Fin C) :
    mean cnt (fun n c => ((R n c : ℝ) : EReal)) c = (((∑ n, R n c) * (1 / (N : ℝ)) : ℝ) : EReal) := by
  have hN' : (N : ℝ) ≠ 0 := Nat.cast_ne_zero.2 hN.ne'
  rw [mean, hcnt, Ideal.div_coe hN', ← coe_sum, ← EReal.coe_mul]

/-- The variance law on the extended reals, for real-valued activations: the two biased variances agree. -/
theorem varK_eq_varR (hN : 0 < N) (cnt : EReal) (hcnt : cnt = ((N : ℝ) : EReal)) (r : Fin N → Fin C → EReal)
    (hr : ∀ n c, IsR (r n c)) (c : Fin C) : varK cnt r c = varR cnt r c := by
  unfold varK varR mean
  exact Cert.MomentVariance.moments_eq_mean_sq_dev hN cnt hcnt (fun n => r n c) (fun n => hr n c)

end Cert.GcnBn

end
-- ==== Proof.GcnBnLaw.lean ====
/-
  The law that joins the two arrangements of the specification: with real inputs, an edge into every node and the
  wrapped target index of an edge into `n` naming `n`, the result `outK` (factors outside the aggregation, variance
  from the two moments) is the result `outR` (factors on every message, variance from the squared deviations).

  The rectified activations agree as functions, so the means agree; the activations are real numbers, so the two
  variances agree by the variance law; the remaining terms are the same.
-/
import Idealize.ShloMosaic.PureOps.Ideal
import proofs.«174693_j24713241821268_2_alg».proof.Proof.GcnBnSpec
import proofs.«174693_j24713241821268_2_alg».proof.Proof.LibRealSums
import proofs.«174693_j24713241821268_2_alg».proof.Proof.GcnBnLawPre
import proofs.«174693_j24713241821268_2_alg».proof.Proof.GcnBnLawVar

noncomputable section

open scoped BigOperators

namespace Cert.GcnBn

open Idealize.ShloMosaic

/-- The two arrangements give the same result. -/
theorem outK_eq_outR {N E C K : ℕ} (hN : 0 < N) (cnt eps : EReal) (hcnt : cnt = ((N : ℝ) : EReal))
    (src dstw dst : IVec ⟨2, ![E, 1]⟩ 32) (X : Fin N → Fin K → EReal) (W : Fin K → Fin C → EReal)
    (b gamma beta : Fin C → EReal) (Wres : Fin K → Fin C → EReal) (bres : Fin C → EReal)
    (hX : ∀ n j, Cert.RealSums.IsR (X n j)) (hW : ∀ j c, Cert.RealSums.IsR (W j c))
    (hb : ∀ c, Cert.RealSums.IsR (b c))
    (hself : ∀ n : Fin N, (into dst n).Nonempty)
    (hwrap : ∀ (n : Fin N) (e : Fin E), e ∈ into dst n → nodeOf hN dstw e = n) (n : Fin N) (c : Fin C) :
    outK hN cnt eps src dst X W b gamma beta Wres bres n c
      = outR hN cnt eps src dstw dst X W b gamma beta Wres bres n c := by
  have hact : actK hN src dst X W b = actR hN src dstw dst X W b :=
    actK_eq_actR hN src dstw dst X W b hself hwrap
  have hvar : varK cnt (actK hN src dst X W b) = varR cnt (actK hN src dst X W b) :=
    funext fun c' => varK_eq_varR hN cnt hcnt _ (actK_isR hN src dst X W b hX hW hb hself) c'
  rw [outK, outR, hvar, hact]

/-- The single-precision word `0x47C35000` denotes the real number `100000`, the count of the nodes. -/
theorem cnt_val : Ideal.ofBits .f32 0x47C35000#32 = (((100000 : ℕ) : ℝ) : EReal) := by
  simp [Ideal.ofBits, Ideal.ieee, -EReal.coe_mul]; norm_num

end Cert.GcnBn

end
-- ==== Proof.FiniteInputs.lean ====
/-
  From the precondition "every float input has finite absolute value" to real-valued inputs.

  The printed predicate is a conjunction, over the float arguments, of "all entries satisfy |x| < +∞"; it is stated to
  be true (the one-bit word 1). A conjunction that is 1 has both conjuncts 1, a reduction by conjunction into a single
  result that is 1 had a 1 at every entry, and an extended real `x` with `max x (-x) < ⊤` is neither `⊥` nor `⊤`: it is a
  real number. The single-precision word `0x7F800000` denotes `⊤`.
-/
import Idealize.ShloMosaic.PureOps.Ideal
import Idealize.ShloMosaic.Lib.ReduceAll
import Idealize.ShloMosaic.Lib.ValueIdx
import proofs.«174693_j24713241821268_2_alg».proof.Pre_finite_inputs
import proofs.«174693_j24713241821268_2_alg».proof.Proof.LibRealSums

noncomputable section

namespace Cert.FiniteInputs

open Idealize.ShloMosaic Cert.Pre_finite_inputs Cert.RealSums

/-- The rank-0 shape has one index. -/
instance : Subsingleton S_.Idx := ⟨fun a b => funext fun d => d.elim0⟩

/-- The single-precision word `0x7F800000` denotes `+∞`. -/
theorem ofBits_inf : Ideal.ofBits .f32 0x7F800000#32 = (⊤ : EReal) := by
  simp [Ideal.ofBits, Ideal.ieee]

/-- An extended real whose absolute value compares below `+∞` is a real number. -/
theorem isR_of_abs_lt_inf (x : EReal)
    (h : Ideal.cmp .olt (max x (-x)) (Ideal.ofBits .f32 0x7F800000#32) = 1#1) : IsR x := by
  rw [ofBits_inf] at h
  induction x using EReal.rec with
  | bot => simp [Ideal.cmp] at h
  | coe r => exact ⟨r, rfl⟩
  | top => simp [Ideal.cmp] at h

/-- One entry of the comparison "|x| < +∞" of an array against the broadcast constant: if it is 1, the entry is real. -/
theorem isR_of_lane {s : Shape} (hb : S_.BroadcastsInDim s (![] : Fin 0 → Fin s.rank)) (x : FVec Ideal s .f32)
    (i : s.Idx)
    (h : cmpf .olt (Host.absf x) (broadcastInDim s ![] hb (constant (F := Ideal) S_ .f32 0x7F800000#32)) i = 1#1) :
    IsR (x i) :=
  isR_of_abs_lt_inf (x i) h

/-- "All entries satisfy |x| < +∞", stated as a reduction by conjunction that is 1, makes every entry real. -/
theorem isR_of_all {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (h : Host.reduce IntOp.andi
      (cmpf .olt (Host.absf x) (broadcastInDim s ![] hb (constant (F := Ideal) S_ .f32 0x7F800000#32))) init hr hu j
        = 1#1) (i : s.Idx) : IsR (x i) :=
  isR_of_lane hb x i (Host.reduce_andi_all _ init hr hu j h i)

/-- The precondition makes the node features, the weights and the bias real-valued. -/
theorem finite_of_pre [Cert.Pre_finite_inputs.Facts] (a0 : FVec Ideal S100000x128 .f32) (a1 : IVec S2x600000 32)
    (a2 : FVec Ideal S128x128 .f32) (a3 a4 a5 : FVec Ideal S128 .f32) (a6 : FVec Ideal S128x128 .f32)
    (a7 : FVec Ideal S128 .f32)
    (h : Cert.Pre_finite_inputs.fn (F := Ideal) a0 a1 a2 a3 a4 a5 a6 a7 = fun _ => 1#1) :
    (∀ i, IsR (a0 i)) ∧ (∀ i, IsR (a2 i)) ∧ (∀ i, IsR (a3 i)) := by
  have e := congrFun h ValueIdx.ix0
  dsimp only [fn, fn_part1] at e
  obtain ⟨e5, -⟩ := IntOp.andi_eq_one.1 e
  obtain ⟨e4, -⟩ := IntOp.andi_eq_one.1 e5
  obtain ⟨e3, -⟩ := IntOp.andi_eq_one.1 e4
  obtain ⟨e2, -⟩ := IntOp.andi_eq_one.1 e3
  obtain ⟨e1, h3⟩ := IntOp.andi_eq_one.1 e2
  obtain ⟨h0, h2⟩ := IntOp.andi_eq_one.1 e1
  exact ⟨isR_of_all _ _ _ a0 _ _ h0, isR_of_all _ _ _ a2 _ _ h2, isR_of_all _ _ _ a3 _ _ h3⟩

end Cert.FiniteInputs

end
-- ==== Proof.Bridge.lean ====
/-
  The two sides joined: on launch contents that satisfy the precondition, the reference's result array and the array
  the idealized kernel's run leaves in its result buffer are the same array.

  Entry by entry, the reference's result is the specification's second arrangement (every message carries the factors
  of its source and of its target, the variance is the mean of the squared deviations) of the argument arrays and of the
  three index columns the reference builds from the edge list; the kernel's result is the first arrangement (the
  factors applied to the rows before and after the aggregation, the variance from the first two moments) of the same
  arrays and columns. The two arrangements agree when the features, the weights and the bias are real numbers — which
  the precondition says —, when every node has an edge into it — its self loop — and when the wrapped target of an edge
  into a node names that node.
-/
import proofs.«174693_j24713241821268_2_alg».proof.Proof.KernelValue
import proofs.«174693_j24713241821268_2_alg».proof.Proof.RefValue
import proofs.«174693_j24713241821268_2_alg».proof.Proof.RefTail
import proofs.«174693_j24713241821268_2_alg».proof.Proof.GcnBnLaw
import proofs.«174693_j24713241821268_2_alg».proof.Proof.FiniteInputs
import proofs.«174693_j24713241821268_2_alg».proof.Proof.Gen.Pre_finite_inputs

noncomputable section

open scoped BigOperators

namespace Cert.Bridge

open Cert.ReferenceIdeal Idealize.ShloMosaic Idealize.ShloMosaic.TcCoe Idealize.SL.Sem Idealize.ShloMosaic.ValueIdx

/-- THE REFERENCE'S VALUE: its result at node n, feature k, is the specification's second arrangement of the
    argument arrays and of the reference's index columns (wrapped source, wrapped target, raw target). -/
theorem ref_value (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 x4 x5 : (⟨S128, .f32⟩ : BufTy).Contents (Elt Ideal))
    (x6 : (⟨S128x128, .f32⟩ : BufTy).Contents (Elt Ideal)) (x7 : (⟨S128, .f32⟩ : BufTy).Contents (Elt Ideal))
    (n : Fin 100000) (k : Fin 128) :
    Read.val_main_v74 (F := Ideal) x0 x1 x2 x3 x4 x5 x6 x7 (ix2 n k)
      = Cert.GcnBn.outR (N := 100000) (E := 700000) (C := 128) (K := 128) (by norm_num)
          (Ideal.ofBits .f32 0x47C35000#32) (Ideal.ofBits .f32 0x3727C5AC#32)
          (Read.val_main_v17 (F := Ideal) x1) (Read.val_main_v24 (F := Ideal) x1) (Read.val_main_v9 (F := Ideal) x1)
          (fun n j => x0 (ix2 n j)) (fun j c => x2 (ix2 j c)) (fun c => x3 (ix1 c)) (fun c => x4 (ix1 c)) (fun c => x5 (ix1 c))
          (fun j c => x6 (ix2 j c)) (fun c => x7 (ix1 c)) n k :=
  (Cert.ReferenceIdeal.RefValue.ref_tail x0 x1 x2 x3 x4 x5 x6 x7
    (Cert.GcnBn.actR (N := 100000) (E := 700000) (C := 128) (K := 128) (by norm_num)
      (Read.val_main_v17 (F := Ideal) x1) (Read.val_main_v24 (F := Ideal) x1) (Read.val_main_v9 (F := Ideal) x1)
      (fun n j => x0 (ix2 n j)) (fun j c => x2 (ix2 j c)) (fun c => x3 (ix1 c)))
    (Cert.ReferenceIdeal.RefValue.ref_act x0 x1 x2 x3) n k).trans rfl

open Cert.KernelIdeal.Whole in
/-- THE TWO RESULTS AGREE: on launch contents whose float inputs are finite, the reference's result array of those
    contents is the array the kernel's run leaves in its result buffer. -/
theorem values_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (A0 m c) (A1 m c) (A2 m c) (A3 m c) (A4 m c) (A5 m c) (A6 m c) (A7 m c) = fun _ => 1#1) :
    Read.val_main_v74 (F := Ideal) (A0 m c) (A1 m c) (A2 m c) (A3 m c) (A4 m c) (A5 m c) (A6 m c) (A7 m c) = OUT m ρ c := by
  obtain ⟨h0, h2, h3⟩ := Cert.FiniteInputs.finite_of_pre _ _ _ _ _ _ _ _ hpre
  funext i
  obtain ⟨n, k, rfl⟩ : ∃ (n : Fin 100000) (k : Fin 128), i = ix2 n k := ⟨i 0, i 1, eq_ix2 i⟩
  rw [ref_value, kernel_value m ρ c n k]
  exact (Cert.GcnBn.outK_eq_outR hN cnt eps Cert.GcnBn.cnt_val (src m c) (Read.val_main_v24 (F := Ideal) (A1 m c)) (dst m c)
    (X m c) (Wt m c) (bias m c) (gam m c) (bet m c) (Wres m c) (bres m c)
    (fun n j => h0 (ix2 n j)) (fun j c' => h2 (ix2 j c')) (fun c' => h3 (ix1 c'))
    (Cert.ReferenceIdeal.RefValue.self_loop (A1 m c)) (Cert.ReferenceIdeal.RefValue.wrapped_target (A1 m c)) n k).symm

end Cert.Bridge

end
-- ==== Proof.lean ====
/-
  The certificate of a graph-convolution layer: symmetric normalisation, rectification, batch normalisation over the
  nodes (batch statistics, biased variance) and a dense residual, on 100000 nodes with 128 input and 128 output
  features and 600000 edges to which the 100000 self loops are appended.

  The kernel computes the layer in three blocked passes over the nodes among host operations. With
  dinv(n) = deg(n)^(-1/2), the first pass forms the rows (x · W)(n, ·) * dinv(n); the host gathers them at the edges'
  sources and adds them into the edges' targets; the second pass sums, over the nodes, the rectified activations
  max(agg(n, k) * dinv(n) + b(k), 0) and their squares; the host takes the mean and the variance from these two
  moments (clamped at zero); the third pass normalises, applies the affine map and adds x · W_res + b_res. The
  reference scales every message by dinv(source) * dinv(target) before adding it into its target, and takes the
  variance as the mean of the squared deviations.

  What is proved. Each of the three programs — the kernel as compiled, the kernel at the ideal values, the reference
  at the ideal values — runs to its end without a fault and leaves its arguments as launched; the ideal pass rewrote
  nothing; and on the extended reals, from launch contents that agree and whose float inputs are finite, the kernel
  and the reference end with the same result. The last holds because both results are one specification in two
  arrangements (the module GcnBnSpec), which agree under three facts: the features, the weights and the bias are real
  numbers (the precondition), so that a factor common to the messages into a node moves out of their sum and the
  variance of real activations is the second moment minus the squared mean, never negative; every node has an edge
  into it (its self loop), so that no degree is zero; and the wrapped and clamped target of an edge into node n is n.
-/
import proofs.«174693_j24713241821268_2_alg».proof.Defs
import proofs.«174693_j24713241821268_2_alg».proof.Proof.Gen.Kernel
import proofs.«174693_j24713241821268_2_alg».proof.Proof.Gen.Kernel.Skeleton
import proofs.«174693_j24713241821268_2_alg».proof.Proof.Gen.Kernel.Launch
import proofs.«174693_j24713241821268_2_alg».proof.Proof.Gen.Kernel.Points
import proofs.«174693_j24713241821268_2_alg».proof.Proof.Gen.Kernel.Frame
import proofs.«174693_j24713241821268_2_alg».proof.Proof.Gen.KernelIdeal
import proofs.«174693_j24713241821268_2_alg».proof.Proof.Gen.KernelIdeal.Skeleton
import proofs.«174693_j24713241821268_2_alg».proof.Proof.Gen.KernelIdeal.Launch
import proofs.«174693_j24713241821268_2_alg».proof.Proof.Gen.KernelIdeal.Points
import proofs.«174693_j24713241821268_2_alg».proof.Proof.Gen.KernelIdeal.Frame
import proofs.«174693_j24713241821268_2_alg».proof.Proof.Gen.ReferenceIdeal
import proofs.«174693_j24713241821268_2_alg».proof.Proof.Gen.Pre_finite_inputs
import proofs.«174693_j24713241821268_2_alg».proof.Proof.Gen.ReferenceIdeal.Run
import proofs.«174693_j24713241821268_2_alg».proof.Proof.Gen.ReferenceIdeal.Read
import proofs.«174693_j24713241821268_2_alg».proof.Proof.KernelRun
import proofs.«174693_j24713241821268_2_alg».proof.Proof.KernelValue
import proofs.«174693_j24713241821268_2_alg».proof.Proof.RefValue
import proofs.«174693_j24713241821268_2_alg».proof.Proof.RefTail
import proofs.«174693_j24713241821268_2_alg».proof.Proof.GcnBnLaw
import proofs.«174693_j24713241821268_2_alg».proof.Proof.FiniteInputs
import proofs.«174693_j24713241821268_2_alg».proof.Proof.Bridge
import Idealize.ShloMosaic.Adequacy
import Idealize.ShloMosaic.Init

noncomputable section

namespace Cert.Proof

open Idealize.ShloMosaic Idealize.SL.Sem Cert.Kernel

/-- The kernel as compiled runs and leaves its arguments as launched. -/
theorem frame_kernel : Cert.frame_Kernel := fun m ρ _ => Cert.Kernel.Gen.frame m ρ

/-- The kernel at the ideal values runs and leaves its arguments as launched. -/
theorem frame_kernel_ideal : Cert.frame_KernelIdeal := fun m ρ _ => Cert.KernelIdeal.Gen.frame m ρ

/-- The reference at the ideal values runs and leaves its arguments as launched: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals, from launch contents that agree and satisfy the precondition, both programs run, end with
    the same result — the array the kernel's last pass leaves, which is the reference's result array — and leave their
    arguments as launched. -/
theorem algebraic : Cert.algebraic_KernelIdeal_ReferenceIdeal := by
  intro m ρ m' ρ' hpre hagree
  refine ⟨fun c => Cert.KernelIdeal.Gen.W6 m ρ c (Proc.devRef .tc Cert.KernelIdeal.main_v37),
    Cert.KernelIdeal.Whole.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.Bridge.values_agree m ρ c (hpre c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
